-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x512 : Shape := ⟨2, ![128, 512]⟩
abbrev S128x512x512 : Shape := ⟨3, ![128, 512, 512]⟩
abbrev S_ : Shape := ⟨0, ![]⟩

class Facts : Prop where
  bcast_S_S128x512 : S_.BroadcastsInDim S128x512 (![] : Fin 0 → Fin S128x512.rank)
  reducesTo_S128x512_S_d0_1 : S128x512.ReducesTo [0, 1] S_
  h_S_ : 0 < S_.numel
  bcast_S_S128x512x512 : S_.BroadcastsInDim S128x512x512 (![] : Fin 0 → Fin S128x512x512.rank)
  reducesTo_S128x512x512_S_d0_1_2 : S128x512x512.ReducesTo [0, 1, 2] S_

variable [Facts]

def fn {F : FTy → Type} [FloatOps F] (main_arg0 : FVec F S128x512 .f32) (main_arg1 : FVec F S128x512x512 .f32) (main_arg2 : FVec F S128x512x512 .f32) : IVec S_ 1 :=
  let main_v0 : FVec F S128x512 .f32 := Host.absf main_arg0
  let main_cst : FVec F S_ .f32 := constant S_ .f32 0x7F800000#32
  let main_v1 : FVec F S128x512 .f32 := broadcastInDim S128x512 ![] bcast_S_S128x512 main_cst
  let main_v2 : IVec S128x512 1 := cmpf .olt main_v0 main_v1
  let main_c : IVec S_ 1 := constantI S_ 1 1#1
  let main_v3 : IVec S_ 1 := (fun x v => Host.reduce IntOp.andi x v reducesTo_S128x512_S_d0_1 h_S_) main_v2 main_c
  let main_v4 : FVec F S128x512x512 .f32 := Host.absf main_arg1
  let main_cst_0 : FVec F S_ .f32 := constant S_ .f32 0x7F800000#32
  let main_v5 : FVec F S128x512x512 .f32 := broadcastInDim S128x512x512 ![] bcast_S_S128x512x512 main_cst_0
  let main_v6 : IVec S128x512x512 1 := cmpf .olt main_v4 main_v5
  let main_c_1 : IVec S_ 1 := constantI S_ 1 1#1
  let main_v7 : IVec S_ 1 := (fun x v => Host.reduce IntOp.andi x v reducesTo_S128x512x512_S_d0_1_2 h_S_) main_v6 main_c_1
  let main_v8 : IVec S_ 1 := andi main_v3 main_v7
  let main_v9 : FVec F S128x512x512 .f32 := Host.absf main_arg2
  let main_cst_2 : FVec F S_ .f32 := constant S_ .f32 0x7F800000#32
  let main_v10 : FVec F S128x512x512 .f32 := broadcastInDim S128x512x512 ![] bcast_S_S128x512x512 main_cst_2
  let main_v11 : IVec S128x512x512 1 := cmpf .olt main_v9 main_v10
  let main_c_3 : IVec S_ 1 := constantI S_ 1 1#1
  let main_v12 : IVec S_ 1 := (fun x v => Host.reduce IntOp.andi x v reducesTo_S128x512x512_S_d0_1_2 h_S_) main_v11 main_c_3
  let main_v13 : IVec S_ 1 := andi main_v8 main_v12
  main_v13
-- ==== Kernel.lean ====
abbrev S128x512 : Shape := ⟨2, ![128, 512]⟩
abbrev S128x512x512 : Shape := ⟨3, ![128, 512, 512]⟩
abbrev S_ : Shape := ⟨0, ![]⟩
abbrev S512x512 : Shape := ⟨2, ![512, 512]⟩
abbrev S4x512x512 : Shape := ⟨3, ![4, 512, 512]⟩
abbrev S4x512x128 : Shape := ⟨3, ![4, 512, 128]⟩
abbrev S4x128x128 : Shape := ⟨3, ![4, 128, 128]⟩
abbrev S128x128 : Shape := ⟨2, ![128, 128]⟩
abbrev S1x128x128 : Shape := ⟨3, ![1, 128, 128]⟩

abbrev nBuf : Space → Nat
  | .hbm => 26
  | .vmem => 7
  | .smem => 0
  | _ => 0

abbrev bufTy : (tb : Table) → Fin (tcTables nBuf tb) → BufTy
  | .hbm, ⟨0, _⟩ => ⟨S128x512, .f32⟩
  | .hbm, ⟨1, _⟩ => ⟨S128x512x512, .f32⟩
  | .hbm, ⟨2, _⟩ => ⟨S128x512x512, .f32⟩
  | .hbm, ⟨3, _⟩ => ⟨S_, .f32⟩
  | .hbm, ⟨4, _⟩ => ⟨S512x512, .f32⟩
  | .hbm, ⟨5, _⟩ => ⟨S512x512, .i32⟩
  | .hbm, ⟨6, _⟩ => ⟨S_, .i32⟩
  | .hbm, ⟨7, _⟩ => ⟨S512x512, .i32⟩
  | .hbm, ⟨8, _⟩ => ⟨S512x512, .i32⟩
  | .hbm, ⟨9, _⟩ => ⟨S512x512, .i32⟩
  | .hbm, ⟨10, _⟩ => ⟨S512x512, .i1⟩
  | .hbm, ⟨11, _⟩ => ⟨S_, .f32⟩
  | .hbm, ⟨12, _⟩ => ⟨S512x512, .f32⟩
  | .hbm, ⟨13, _⟩ => ⟨S512x512, .f32⟩
  | .hbm, ⟨14, _⟩ => ⟨S512x512, .i32⟩
  | .hbm, ⟨15, _⟩ => ⟨S512x512, .i32⟩
  | .hbm, ⟨16, _⟩ => ⟨S_, .i32⟩
  | .hbm, ⟨17, _⟩ => ⟨S512x512, .i32⟩
  | .hbm, ⟨18, _⟩ => ⟨S512x512, .i32⟩
  | .hbm, ⟨19, _⟩ => ⟨S512x512, .i1⟩
  | .hbm, ⟨20, _⟩ => ⟨S512x512, .f32⟩
  | .hbm, ⟨21, _⟩ => ⟨S_, .f32⟩
  | .hbm, ⟨22, _⟩ => ⟨S512x512, .f32⟩
  | .hbm, ⟨23, _⟩ => ⟨S512x512, .f32⟩
  | .hbm, ⟨24, _⟩ => ⟨S512x512, .f32⟩
  | .hbm, ⟨25, _⟩ => ⟨S128x512x512, .f32⟩
  | .local _ .vmem, ⟨0, _⟩ => ⟨S4x512x512, .f32⟩
  | .local _ .vmem, ⟨1, _⟩ => ⟨S4x512x512, .f32⟩
  | .local _ .vmem, ⟨2, _⟩ => ⟨S4x512x512, .f32⟩
  | .local _ .vmem, ⟨3, _⟩ => ⟨S4x512x512, .f32⟩
  | .local _ .vmem, ⟨4, _⟩ => ⟨S512x512, .f32⟩
  | .local _ .vmem, ⟨5, _⟩ => ⟨S4x512x512, .f32⟩
  | .local _ .vmem, ⟨6, _⟩ => ⟨S4x512x512, .f32⟩
  | _, _ => ⟨S128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_call0_v0 : Ref sig .tc := ⟨.hbm, 5, rfl⟩
abbrev main_call0_c : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_cst : Ref sig .tc := ⟨.hbm, 11, rfl⟩
abbrev main_call0_v5 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S512x512 : S_.BroadcastsInDim S512x512 (![] : Fin 0 → Fin S512x512.rank)
  inb_S4x512x512_S4x512x512_0_0_0 : ∀ a, (![0, 0, 0] : Fin 3 → Nat) a + S4x512x512.size a ≤ S4x512x512.size a
  h_S4x512x512 : 0 < S4x512x512.numel
  bitsLt_bf16_f32 : FTy.bits .bf16 < FTy.bits .f32
  slices_S4x512x512_o0_0_0_S4x512x128 : S4x512x512.Slices ![0, 0, 0] S4x512x128
  inb_S512x512_S128x128_0_0 : ∀ a, (![0, 0] : Fin 2 → Nat) a + S128x128.size a ≤ S512x512.size a
  h_S128x128 : 0 < S128x128.numel
  shapeCasts_S128x128_S128x128 : S128x128.ShapeCasts S128x128
  shapeCasts_S128x128_S1x128x128 : S128x128.ShapeCasts S1x128x128
  broadcasts_S1x128x128_S4x128x128 : S1x128x128.Broadcasts S4x128x128
  slices_S4x512x512_o0_0_128_S4x512x128 : S4x512x512.Slices ![0, 0, 128] S4x512x128
  slices_S4x512x512_o0_0_256_S4x512x128 : S4x512x512.Slices ![0, 0, 256] S4x512x128
  slices_S4x512x512_o0_0_384_S4x512x128 : S4x512x512.Slices ![0, 0, 384] S4x512x128
  inb_S4x512x512_S4x512x128_0_0_0 : ∀ a, (![0, 0, 0] : Fin 3 → Nat) a + S4x512x128.size a ≤ S4x512x512.size a
  h_S4x512x128 : 0 < S4x512x128.numel
  inb_S512x512_S128x128_128_128 : ∀ a, (![128, 128] : Fin 2 → Nat) a + S128x128.size a ≤ S512x512.size a
  inb_S4x512x512_S4x512x128_0_0_128 : ∀ a, (![0, 0, 128] : Fin 3 → Nat) a + S4x512x128.size a ≤ S4x512x512.size a
  inb_S512x512_S128x128_256_256 : ∀ a, (![256, 256] : Fin 2 → Nat) a + S128x128.size a ≤ S512x512.size a
  inb_S4x512x512_S4x512x128_0_0_256 : ∀ a, (![0, 0, 256] : Fin 3 → Nat) a + S4x512x128.size a ≤ S4x512x512.size a
  inb_S512x512_S128x128_384_384 : ∀ a, (![384, 384] : Fin 2 → Nat) a + S128x128.size a ≤ S512x512.size a
  inb_S4x512x512_S4x512x128_0_0_384 : ∀ a, (![0, 0, 384] : Fin 3 → Nat) a + S4x512x128.size a ≤ S4x512x512.size a
  dot_S4x512x512_S4x512x512_S4x512x512_2_1_1_2_0_0_wf : DotDims.WF S4x512x512 S4x512x512 S4x512x512 [2] [1] [1] [2] [0] [0]
  dot_S4x512x128_S4x512x128_S4x128x128_1_1_2_2_0_0_wf : DotDims.WF S4x512x128 S4x512x128 S4x128x128 [1] [1] [2] [2] [0] [0]
  dot_S4x512x128_S4x128x128_S4x512x128_2_1_1_2_0_0_wf : DotDims.WF S4x512x128 S4x128x128 S4x512x128 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x512.size a ≤ S128x512x512.size a
  hwx0_0 : ∀ i : grid0.Coords, EltTy.bits .f32 = 32 ∨ (Rect.block (s := S128x512x512) S4x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x512x512.size a ≤ S128x512x512.size a
  hwx0_1 : ∀ i : grid0.Coords, EltTy.bits .f32 = 32 ∨ (Rect.block (s := S128x512x512) S4x512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x512x512.size a ≤ S128x512x512.size a
  hwx0_3 : ∀ i : grid0.Coords, EltTy.bits .f32 = 32 ∨ (Rect.block (s := S128x512x512) S4x512x512.size (cc0_transform_3 i) (hinb0_3 i)).WholeWords (EltTy.packing .f32)

variable [Facts₀]

def dot_S4x512x512_S4x512x512_S4x512x512_2_1_1_2_0_0 : DotDims S4x512x512 S4x512x512 S4x512x512 where
  lhsContracting := [2]
  rhsContracting := [1]
  lhsNonContracting := [1]
  rhsNonContracting := [2]
  lhsBatch := [0]
  rhsBatch := [0]
  wf := dot_S4x512x512_S4x512x512_S4x512x512_2_1_1_2_0_0_wf
def dot_S4x512x128_S4x512x128_S4x128x128_1_1_2_2_0_0 : DotDims S4x512x128 S4x512x128 S4x128x128 where
  lhsContracting := [1]
  rhsContracting := [1]
  lhsNonContracting := [2]
  rhsNonContracting := [2]
  lhsBatch := [0]
  rhsBatch := [0]
  wf := dot_S4x512x128_S4x512x128_S4x128x128_1_1_2_2_0_0_wf
def dot_S4x512x128_S4x128x128_S4x512x128_2_1_1_2_0_0 : DotDims S4x512x128 S4x128x128 S4x512x128 where
  lhsContracting := [2]
  rhsContracting := [1]
  lhsNonContracting := [1]
  rhsNonContracting := [2]
  lhsBatch := [0]
  rhsBatch := [0]
  wf := dot_S4x512x128_S4x128x128_S4x512x128_2_1_1_2_0_0_wf

abbrev win0_0 : Pipeline.Window sig grid0 :=
  Pipeline.Window.ofSpec (Memref.whole main_arg1) S4x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S4x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S4x512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S128x512 : Shape := ⟨2, ![128, 512]⟩
abbrev S128x512x512 : Shape := ⟨3, ![128, 512, 512]⟩
abbrev S_ : Shape := ⟨0, ![]⟩
abbrev S512x512 : Shape := ⟨2, ![512, 512]⟩
abbrev S1x512x512 : Shape := ⟨3, ![1, 512, 512]⟩

abbrev nBuf : Space → Nat
  | .hbm => 33
  | .vmem => 0
  | .smem => 0
  | _ => 0

abbrev bufTy : (tb : Table) → Fin (tcTables nBuf tb) → BufTy
  | .hbm, ⟨0, _⟩ => ⟨S128x512, .f32⟩
  | .hbm, ⟨1, _⟩ => ⟨S128x512x512, .f32⟩
  | .hbm, ⟨2, _⟩ => ⟨S128x512x512, .f32⟩
  | .hbm, ⟨3, _⟩ => ⟨S128x512x512, .f32⟩
  | .hbm, ⟨4, _⟩ => ⟨S128x512x512, .f32⟩
  | .hbm, ⟨5, _⟩ => ⟨S128x512x512, .f32⟩
  | .hbm, ⟨6, _⟩ => ⟨S_, .f32⟩
  | .hbm, ⟨7, _⟩ => ⟨S512x512, .f32⟩
  | .hbm, ⟨8, _⟩ => ⟨S512x512, .i32⟩
  | .hbm, ⟨9, _⟩ => ⟨S_, .i32⟩
  | .hbm, ⟨10, _⟩ => ⟨S512x512, .i32⟩
  | .hbm, ⟨11, _⟩ => ⟨S512x512, .i32⟩
  | .hbm, ⟨12, _⟩ => ⟨S512x512, .i32⟩
  | .hbm, ⟨13, _⟩ => ⟨S512x512, .i1⟩
  | .hbm, ⟨14, _⟩ => ⟨S_, .f32⟩
  | .hbm, ⟨15, _⟩ => ⟨S512x512, .f32⟩
  | .hbm, ⟨16, _⟩ => ⟨S512x512, .f32⟩
  | .hbm, ⟨17, _⟩ => ⟨S512x512, .i32⟩
  | .hbm, ⟨18, _⟩ => ⟨S512x512, .i32⟩
  | .hbm, ⟨19, _⟩ => ⟨S_, .i32⟩
  | .hbm, ⟨20, _⟩ => ⟨S512x512, .i32⟩
  | .hbm, ⟨21, _⟩ => ⟨S512x512, .i32⟩
  | .hbm, ⟨22, _⟩ => ⟨S512x512, .i1⟩
  | .hbm, ⟨23, _⟩ => ⟨S512x512, .f32⟩
  | .hbm, ⟨24, _⟩ => ⟨S_, .f32⟩
  | .hbm, ⟨25, _⟩ => ⟨S512x512, .f32⟩
  | .hbm, ⟨26, _⟩ => ⟨S512x512, .f32⟩
  | .hbm, ⟨27, _⟩ => ⟨S512x512, .f32⟩
  | .hbm, ⟨28, _⟩ => ⟨S1x512x512, .f32⟩
  | .hbm, ⟨29, _⟩ => ⟨S128x512x512, .f32⟩
  | .hbm, ⟨30, _⟩ => ⟨S128x512x512, .f32⟩
  | .hbm, ⟨31, _⟩ => ⟨S128x512x512, .f32⟩
  | .hbm, ⟨32, _⟩ => ⟨S128x512x512, .f32⟩
  | _, _ => ⟨S128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_cst : Ref sig .tc := ⟨.hbm, 14, rfl⟩
abbrev main_call0_v5 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩

abbrev nD : Nat := 1
abbrev τ : Topo := Topo.v7x

variable {F : FTy → Type} [FloatOps F]

class Facts₀ : Prop where
  transposes_S128x512x512_S128x512x512_0_2_1 : S128x512x512.Transposes [0, 2, 1] S128x512x512
  bcast_S_S512x512 : S_.BroadcastsInDim S512x512 (![] : Fin 0 → Fin S512x512.rank)
  bcast_S512x512_S1x512x512_1_2 : S512x512.BroadcastsInDim S1x512x512 (![1, 2] : Fin 2 → Fin S1x512x512.rank)
  bcast_S1x512x512_S128x512x512_0_1_2 : S1x512x512.BroadcastsInDim S128x512x512 (![0, 1, 2] : Fin 3 → Fin S128x512x512.rank)
  dot_S128x512x512_S128x512x512_S128x512x512_2_1_1_2_0_0_wf : DotDims.WF S128x512x512 S128x512x512 S128x512x512 [2] [1] [1] [2] [0] [0]

variable [Facts₀]

def dot_S128x512x512_S128x512x512_S128x512x512_2_1_1_2_0_0 : DotDims S128x512x512 S128x512x512 S128x512x512 where
  lhsContracting := [2]
  rhsContracting := [1]
  lhsNonContracting := [1]
  rhsNonContracting := [2]
  lhsBatch := [0]
  rhsBatch := [0]
  wf := dot_S128x512x512_S128x512x512_S128x512x512_2_1_1_2_0_0_wf

class Facts : Prop extends Facts₀ where

variable [Facts]
-- ==== Proof.Spec.lean ====
/-
  The function both programs compute, and the law that joins their two arrangements.

  For a batch of matrices C (the covariance) and L (the factor), both 512 × 512, and a fixed 512 × 512 weight
  matrix W, the result is, batch row by batch row,

      R = -(L · ((Lᵀ · (C · L)) ∘ W))          (∘ the entrywise product)

  that is, at row r and column c,  R[r,c] = -∑ j, L[r,j] · (G[j,c] · W[j,c])  with  G = Lᵀ · (C · L).
  When W vanishes above the diagonal and is 1 below it, column c of the masked matrix is zero in every row j < c
  and is column c of G itself in every row j > c. Cutting the 512 rows into four blocks of 128, a column c of
  block K therefore needs only the row blocks I ≥ K, and only the diagonal block I = K needs W at all: the sum over
  all 512 rows equals the sum over the blocks I ≥ K, the off-diagonal ones without the weight. Nothing here needs a
  finite entry: x · 0 = 0, x · 1 = x, 0 + x = x and the regrouping of a finite sum hold for every extended real.
-/
import Idealize.ShloMosaic.PureOps.Ideal
import Idealize.ShloMosaic.Lib.ValueIdx

noncomputable section

open scoped BigOperators

namespace Cert.Congruence

open Idealize.ShloMosaic Idealize.ShloMosaic.ValueIdx

/-- A batch of `B` matrices of extent 512 × 512 over the extended reals, indexed (batch, row, column). -/
abbrev Batch (B : Nat) := (⟨3, ![B, 512, 512]⟩ : Shape).Idx → EReal
/-- One 512 × 512 matrix over the extended reals. -/
abbrev Mat := (⟨2, ![512, 512]⟩ : Shape).Idx → EReal

/-- (C · L)[j,c] in batch row `b`. -/
def prod {B : Nat} (C L : Batch B) (b : Fin B) (j c : Fin 512) : EReal :=
  ∑ l : Fin 512, C (ix3 b j l) * L (ix3 b l c)

/-- G[i,c] = (Lᵀ · (C · L))[i,c] in batch row `b`. -/
def gram {B : Nat} (C L : Batch B) (b : Fin B) (i c : Fin 512) : EReal :=
  ∑ j : Fin 512, L (ix3 b j i) * prod C L b j c

/-- The result R = -(L · (G ∘ W)), entry by entry. -/
def result {B : Nat} (C L : Batch B) (W : Mat) : Batch B := fun y =>
  -(∑ j : Fin 512, L (ix3 (y 0) (y 1) j) * (gram C L (y 0) j (y 2) * W (ix2 j (y 2))))

theorem result_apply {B : Nat} (C L : Batch B) (W : Mat) (b : Fin B) (r c : Fin 512) :
    result C L W (ix3 b r c) = -(∑ j : Fin 512, L (ix3 b r j) * (gram C L b j c * W (ix2 j c))) := rfl

/-- The weight vanishes above the diagonal and is 1 below it (on the diagonal it is whatever it is). -/
structure Triangular (W : Mat) : Prop where
  above : ∀ j c : Fin 512, j.val < c.val → W (ix2 j c) = 0
  below : ∀ j c : Fin 512, c.val < j.val → W (ix2 j c) = 1

/-- Row (or column) `o + i` of the 512, for a block that starts at `o`. -/
def at128 (o : Nat) (h : o + 128 ≤ 512) (i : Fin 128) : Fin 512 := ⟨o + i.val, by have := i.isLt; omega⟩

@[simp] theorem at128_val (o : Nat) (h : o + 128 ≤ 512) (i : Fin 128) : (at128 o h i).val = o + i.val := rfl

/-- A sum over 512 terms is the sum of its four blocks of 128. -/
theorem sum_blocks {M : Type*} [AddCommMonoid M] (f : Fin 512 → M) :
    ∑ j : Fin 512, f j
      = (∑ i : Fin 128, f (at128 0 (by decide) i)) + (∑ i : Fin 128, f (at128 128 (by decide) i))
        + (∑ i : Fin 128, f (at128 256 (by decide) i)) + (∑ i : Fin 128, f (at128 384 (by decide) i)) := by
  have e1 := Fin.sum_univ_add (M := M) (a := 128) (b := 384) f
  have e2 := Fin.sum_univ_add (M := M) (a := 128) (b := 256) (fun i : Fin 384 => f (Fin.natAdd 128 i))
  have e3 := Fin.sum_univ_add (M := M) (a := 128) (b := 128) (fun i : Fin 256 => f (Fin.natAdd 128 (Fin.natAdd 128 i)))
  rw [e1, e2, e3, ← add_assoc, ← add_assoc]
  rfl

end Cert.Congruence

end
-- ==== Proof.BlockOps.lean ====
/-
  The kernel body's vector operations read at an entry, over the extended reals.

  A block holds 4 batch rows. Three matrix products occur, all into zero: a full one, [512,512] by [512,512];
  the one that contracts the ROW axis of two [512,128] column slabs (slabᵀ · slab, a [128,128] block); and a
  [512,128] slab by a [128,128] block. Each entry is the plain sum over the contracted axis. A column slab at
  offset o reads column o + i of the full matrix; the [128,128] weight block, spread over the 4 batch rows, reads
  its own entry.
-/
import proofs.«181169_j25237227831465_2_alg».proof.Proof.Gen.KernelIdeal
import proofs.«181169_j25237227831465_2_alg».proof.Proof.Spec
import Idealize.ShloMosaic.Lib.Pipeline.Value
import Idealize.ShloMosaic.Lib.ValueIdx
import Idealize.ShloMosaic.PureOps.Ideal.Laws

noncomputable section

namespace Cert.BlockOps

open Cert.KernelIdeal Idealize.ShloMosaic Idealize.ShloMosaic.ValueIdx Cert.Congruence
open Cert.KernelIdeal.Facts₀

variable [Cert.KernelIdeal.Facts]

local notation "DFull" => dot_S4x512x512_S4x512x512_S4x512x512_2_1_1_2_0_0
local notation "DGram" => dot_S4x512x128_S4x512x128_S4x128x128_1_1_2_2_0_0
local notation "DSlab" => dot_S4x512x128_S4x128x128_S4x512x128_2_1_1_2_0_0

/-! ## Where each product reads its operands: one fact per operand axis -/

theorem full_l0 (i : S4x512x512.Idx) (q : (DotDims.contr DFull).Idx) :
    (DotDims.lhsIdx DFull i q 0).val = (i 0).val := by
  unfold DotDims.lhsIdx
  rw [dif_pos (show (0 : Fin S4x512x512.rank) ∈ DotDims.lhsBatch DFull by decide)]
  rfl
theorem full_l1 (i : S4x512x512.Idx) (q : (DotDims.contr DFull).Idx) :
    (DotDims.lhsIdx DFull i q 1).val = (i 1).val := by
  unfold DotDims.lhsIdx
  rw [dif_neg (show ¬(1 : Fin S4x512x512.rank) ∈ DotDims.lhsBatch DFull by decide),
    dif_pos (show (1 : Fin S4x512x512.rank) ∈ DotDims.lhsNonContracting DFull by decide)]
  rfl
theorem full_l2 (i : S4x512x512.Idx) (q : (DotDims.contr DFull).Idx) :
    (DotDims.lhsIdx DFull i q 2).val = (q ⟨0, by decide⟩).val :=
  DotDims.lhsIdx_val_of_single DFull rfl i q
theorem full_r0 (i : S4x512x512.Idx) (q : (DotDims.contr DFull).Idx) :
    (DotDims.rhsIdx DFull i q 0).val = (i 0).val := by
  unfold DotDims.rhsIdx
  rw [dif_pos (show (0 : Fin S4x512x512.rank) ∈ DotDims.rhsBatch DFull by decide)]
  rfl
theorem full_r1 (i : S4x512x512.Idx) (q : (DotDims.contr DFull).Idx) :
    (DotDims.rhsIdx DFull i q 1).val = (q ⟨0, by decide⟩).val :=
  DotDims.rhsIdx_val_of_single DFull rfl i q
theorem full_r2 (i : S4x512x512.Idx) (q : (DotDims.contr DFull).Idx) :
    (DotDims.rhsIdx DFull i q 2).val = (i 2).val := by
  unfold DotDims.rhsIdx
  rw [dif_neg (show ¬(2 : Fin S4x512x512.rank) ∈ DotDims.rhsBatch DFull by decide),
    dif_pos (show (2 : Fin S4x512x512.rank) ∈ DotDims.rhsNonContracting DFull by decide)]
  rfl
theorem gramd_l0 (i : S4x128x128.Idx) (q : (DotDims.contr DGram).Idx) :
    (DotDims.lhsIdx DGram i q 0).val = (i 0).val := by
  unfold DotDims.lhsIdx
  rw [dif_pos (show (0 : Fin S4x512x128.rank) ∈ DotDims.lhsBatch DGram by decide)]
  rfl
theorem gramd_l1 (i : S4x128x128.Idx) (q : (DotDims.contr DGram).Idx) :
    (DotDims.lhsIdx DGram i q 1).val = (q ⟨0, by decide⟩).val :=
  DotDims.lhsIdx_val_of_single DGram rfl i q
theorem gramd_l2 (i : S4x128x128.Idx) (q : (DotDims.contr DGram).Idx) :
    (DotDims.lhsIdx DGram i q 2).val = (i 1).val := by
  unfold DotDims.lhsIdx
  rw [dif_neg (show ¬(2 : Fin S4x512x128.rank) ∈ DotDims.lhsBatch DGram by decide),
    dif_pos (show (2 : Fin S4x512x128.rank) ∈ DotDims.lhsNonContracting DGram by decide)]
  rfl
theorem gramd_r0 (i : S4x128x128.Idx) (q : (DotDims.contr DGram).Idx) :
    (DotDims.rhsIdx DGram i q 0).val = (i 0).val := by
  unfold DotDims.rhsIdx
  rw [dif_pos (show (0 : Fin S4x512x128.rank) ∈ DotDims.rhsBatch DGram by decide)]
  rfl
theorem gramd_r1 (i : S4x128x128.Idx) (q : (DotDims.contr DGram).Idx) :
    (DotDims.rhsIdx DGram i q 1).val = (q ⟨0, by decide⟩).val :=
  DotDims.rhsIdx_val_of_single DGram rfl i q
theorem gramd_r2 (i : S4x128x128.Idx) (q : (DotDims.contr DGram).Idx) :
    (DotDims.rhsIdx DGram i q 2).val = (i 2).val := by
  unfold DotDims.rhsIdx
  rw [dif_neg (show ¬(2 : Fin S4x512x128.rank) ∈ DotDims.rhsBatch DGram by decide),
    dif_pos (show (2 : Fin S4x512x128.rank) ∈ DotDims.rhsNonContracting DGram by decide)]
  rfl
theorem slabd_l0 (i : S4x512x128.Idx) (q : (DotDims.contr DSlab).Idx) :
    (DotDims.lhsIdx DSlab i q 0).val = (i 0).val := by
  unfold DotDims.lhsIdx
  rw [dif_pos (show (0 : Fin S4x512x128.rank) ∈ DotDims.lhsBatch DSlab by decide)]
  rfl
theorem slabd_l1 (i : S4x512x128.Idx) (q : (DotDims.contr DSlab).Idx) :
    (DotDims.lhsIdx DSlab i q 1).val = (i 1).val := by
  unfold DotDims.lhsIdx
  rw [dif_neg (show ¬(1 : Fin S4x512x128.rank) ∈ DotDims.lhsBatch DSlab by decide),
    dif_pos (show (1 : Fin S4x512x128.rank) ∈ DotDims.lhsNonContracting DSlab by decide)]
  rfl
theorem slabd_l2 (i : S4x512x128.Idx) (q : (DotDims.contr DSlab).Idx) :
    (DotDims.lhsIdx DSlab i q 2).val = (q ⟨0, by decide⟩).val :=
  DotDims.lhsIdx_val_of_single DSlab rfl i q
theorem slabd_r0 (i : S4x512x128.Idx) (q : (DotDims.contr DSlab).Idx) :
    (DotDims.rhsIdx DSlab i q 0).val = (i 0).val := by
  unfold DotDims.rhsIdx
  rw [dif_pos (show (0 : Fin S4x128x128.rank) ∈ DotDims.rhsBatch DSlab by decide)]
  rfl
theorem slabd_r1 (i : S4x512x128.Idx) (q : (DotDims.contr DSlab).Idx) :
    (DotDims.rhsIdx DSlab i q 1).val = (q ⟨0, by decide⟩).val :=
  DotDims.rhsIdx_val_of_single DSlab rfl i q
theorem slabd_r2 (i : S4x512x128.Idx) (q : (DotDims.contr DSlab).Idx) :
    (DotDims.rhsIdx DSlab i q 2).val = (i 2).val := by
  unfold DotDims.rhsIdx
  rw [dif_neg (show ¬(2 : Fin S4x128x128.rank) ∈ DotDims.rhsBatch DSlab by decide),
    dif_pos (show (2 : Fin S4x128x128.rank) ∈ DotDims.rhsNonContracting DSlab by decide)]
  rfl

/-! ## The three products at an entry -/

/-- The full product into zero: entry (b, i, k) is ∑ q, l[b,i,q] · r[b,q,k]. -/
theorem full_apply (l : FVec Ideal S4x512x512 .bf16) (r : FVec Ideal S4x512x512 .bf16) (b : Fin 4) (i : Fin 512) (k : Fin 512) :
    matmul (F := Ideal) DFull none l r (constant S4x512x512 .f32 0x00000000#32) (ix3 b i k)
      = ∑ q : Fin 512, l (ix3 b i q) * r (ix3 b q k) := by
  simp only [matmul]
  rw [Ideal.matmul_constant_zero_apply, ← Equiv.sum_comp (contrEquiv1 DFull 512 rfl rfl).symm]
  refine Finset.sum_congr rfl fun q _ => ?_
  have hq := contrEquiv1_symm_val DFull 512 rfl rfl q
  have el : DotDims.lhsIdx DFull (ix3 b i k) ((contrEquiv1 DFull 512 rfl rfl).symm q) = ix3 b i q :=
    funext fun a => Fin.ext (by
      match a with
      | ⟨0, _⟩ => exact full_l0 _ _
      | ⟨1, _⟩ => exact full_l1 _ _
      | ⟨2, _⟩ => exact (full_l2 _ _).trans hq)
  have er : DotDims.rhsIdx DFull (ix3 b i k) ((contrEquiv1 DFull 512 rfl rfl).symm q) = ix3 b q k :=
    funext fun a => Fin.ext (by
      match a with
      | ⟨0, _⟩ => exact full_r0 _ _
      | ⟨1, _⟩ => exact (full_r1 _ _).trans hq
      | ⟨2, _⟩ => exact full_r2 _ _)
  rw [el, er]

/-- Two column slabs contracted along their ROWS, into zero: entry (b, i, k) is ∑ q, l[b,q,i] · r[b,q,k]. -/
theorem gram_apply (l : FVec Ideal S4x512x128 .bf16) (r : FVec Ideal S4x512x128 .bf16) (b : Fin 4) (i : Fin 128) (k : Fin 128) :
    matmul (F := Ideal) DGram none l r (constant S4x128x128 .f32 0x00000000#32) (ix3 b i k)
      = ∑ q : Fin 512, l (ix3 b q i) * r (ix3 b q k) := by
  simp only [matmul]
  rw [Ideal.matmul_constant_zero_apply, ← Equiv.sum_comp (contrEquiv1 DGram 512 rfl rfl).symm]
  refine Finset.sum_congr rfl fun q _ => ?_
  have hq := contrEquiv1_symm_val DGram 512 rfl rfl q
  have el : DotDims.lhsIdx DGram (ix3 b i k) ((contrEquiv1 DGram 512 rfl rfl).symm q) = ix3 b q i :=
    funext fun a => Fin.ext (by
      match a with
      | ⟨0, _⟩ => exact gramd_l0 _ _
      | ⟨1, _⟩ => exact (gramd_l1 _ _).trans hq
      | ⟨2, _⟩ => exact gramd_l2 _ _)
  have er : DotDims.rhsIdx DGram (ix3 b i k) ((contrEquiv1 DGram 512 rfl rfl).symm q) = ix3 b q k :=
    funext fun a => Fin.ext (by
      match a with
      | ⟨0, _⟩ => exact gramd_r0 _ _
      | ⟨1, _⟩ => exact (gramd_r1 _ _).trans hq
      | ⟨2, _⟩ => exact gramd_r2 _ _)
  rw [el, er]

/-- A column slab by a [128,128] block, into zero: entry (b, i, k) is ∑ q, l[b,i,q] · r[b,q,k], q over the 128 columns of the slab. -/
theorem slab_apply (l : FVec Ideal S4x512x128 .bf16) (r : FVec Ideal S4x128x128 .bf16) (b : Fin 4) (i : Fin 512) (k : Fin 128) :
    matmul (F := Ideal) DSlab none l r (constant S4x512x128 .f32 0x00000000#32) (ix3 b i k)
      = ∑ q : Fin 128, l (ix3 b i q) * r (ix3 b q k) := by
  simp only [matmul]
  rw [Ideal.matmul_constant_zero_apply, ← Equiv.sum_comp (contrEquiv1 DSlab 128 rfl rfl).symm]
  refine Finset.sum_congr rfl fun q _ => ?_
  have hq := contrEquiv1_symm_val DSlab 128 rfl rfl q
  have el : DotDims.lhsIdx DSlab (ix3 b i k) ((contrEquiv1 DSlab 128 rfl rfl).symm q) = ix3 b i q :=
    funext fun a => Fin.ext (by
      match a with
      | ⟨0, _⟩ => exact slabd_l0 _ _
      | ⟨1, _⟩ => exact slabd_l1 _ _
      | ⟨2, _⟩ => exact (slabd_l2 _ _).trans hq)
  have er : DotDims.rhsIdx DSlab (ix3 b i k) ((contrEquiv1 DSlab 128 rfl rfl).symm q) = ix3 b q k :=
    funext fun a => Fin.ext (by
      match a with
      | ⟨0, _⟩ => exact slabd_r0 _ _
      | ⟨1, _⟩ => exact (slabd_r1 _ _).trans hq
      | ⟨2, _⟩ => exact slabd_r2 _ _)
  rw [el, er]

/-! ## A column slab and the weight block at an entry -/

/-- The 128 columns from `o` on of a [4,512,512] block: entry (b, p, i) is the block's entry (b, p, o + i). -/
theorem slab_col (X : FVec Ideal S4x512x512 .bf16) (o : Nat) (ho : o + 128 ≤ 512)
    (h : S4x512x512.Slices ![0, 0, o] S4x512x128) (b : Fin 4) (p : Fin 512) (i : Fin 128) :
    extractStridedSlice S4x512x128 ![0, 0, o] X h (ix3 b p i) = X (ix3 b p (at128 o ho i)) :=
  extractStridedSlice_apply ![0, 0, o] X h (ix3 b p i) (ix3 b p (at128 o ho i)) (fun a => match a with
    | ⟨0, _⟩ => by show b.val = 0 + b.val; omega
    | ⟨1, _⟩ => by show p.val = 0 + p.val; omega
    | ⟨2, _⟩ => by show o + i.val = o + i.val; rfl)

/-- A [128,128] block given a leading unit axis and spread over the 4 batch rows reads its own entry in each. -/
theorem spread_apply (w : FVec Ideal S128x128 .f32) (h1 : S128x128.ShapeCasts S128x128) (h2 : S128x128.ShapeCasts S1x128x128)
    (h3 : S1x128x128.Broadcasts S4x128x128) (b : Fin 4) (i k : Fin 128) :
    broadcastTo S4x128x128 (shapeCast S1x128x128 (shapeCast S128x128 w h1) h2) h3 (ix3 b i k) = w (ix2 i k) := by
  rw [shapeCast_self]
  refine (broadcastTo_apply _ h3 (ix3 b i k) (ix3 (0 : Fin 1) i k) (fun a => match a with
    | ⟨0, _⟩ => rfl
    | ⟨1, _⟩ => rfl
    | ⟨2, _⟩ => rfl)).trans ?_
  exact shapeCast_apply w h2 (ix3 (0 : Fin 1) i k) (ix2 i k) (by
    rw [Shape.rowMajor_val_two, Shape.rowMajor_val_three]
    show i.val * 128 + k.val = (0 * 128 + i.val) * 128 + k.val
    omega)

end Cert.BlockOps

end
-- ==== Proof.BlockLaw.lean ====
/-
  The block-triangular arrangement of the last product.

  Fix a batch row b, a row p and a column c = oK + k of column block K. The entry R[p,c] = -∑ j, L[p,j] · (G[j,c] · W[j,c])
  runs over all 512 rows j of the masked matrix. Cut the rows into four blocks of 128:
    * a row block that ends at or before column block K starts lies above the diagonal: W = 0 there and the block adds 0;
    * the row block I = K is weighted by the diagonal block of W;
    * a row block that starts after column block K ends lies below the diagonal: W = 1 there and the weight drops out.
  So R[p,c] is minus the sum of the diagonal block's term and the terms of the blocks below it, which is what a
  body that skips the blocks above the diagonal accumulates, starting from zero and negating by 0 - x.
-/
import proofs.«181169_j25237227831465_2_alg».proof.Proof.Spec

noncomputable section

open scoped BigOperators

namespace Cert.Congruence

open Idealize.ShloMosaic Idealize.ShloMosaic.ValueIdx

/-- A 128 × 128 block over the extended reals. -/
abbrev Blk := (⟨2, ![128, 128]⟩ : Shape).Idx → EReal

/-- The diagonal row block's term: ∑ i, L[p, o+i] · (G[o+i, o+k] · w[i,k]), w the diagonal block of the weight. -/
def diagTerm {B : Nat} (C L : Batch B) (w : Blk) (b : Fin B) (p : Fin 512) (o : Nat) (ho : o + 128 ≤ 512) (k : Fin 128) : EReal :=
  ∑ i : Fin 128, L (ix3 b p (at128 o ho i)) * (gram C L b (at128 o ho i) (at128 o ho k) * w (ix2 i k))

/-- A row block below the diagonal: ∑ i, L[p, oI+i] · G[oI+i, oK+k], no weight. -/
def offTerm {B : Nat} (C L : Batch B) (b : Fin B) (p : Fin 512) (oI : Nat) (hI : oI + 128 ≤ 512) (oK : Nat) (hK : oK + 128 ≤ 512)
    (k : Fin 128) : EReal :=
  ∑ i : Fin 128, L (ix3 b p (at128 oI hI i)) * gram C L b (at128 oI hI i) (at128 oK hK k)

section
variable {B : Nat} (C L : Batch B) (W : Mat) (hW : Triangular W) (b : Fin B) (p : Fin 512)
include hW

/-- A row block above the diagonal adds nothing. -/
theorem rows_above (oI : Nat) (hI : oI + 128 ≤ 512) (oK : Nat) (hK : oK + 128 ≤ 512) (hlt : oI + 128 ≤ oK) (k : Fin 128) :
    ∑ i : Fin 128, L (ix3 b p (at128 oI hI i))
        * (gram C L b (at128 oI hI i) (at128 oK hK k) * W (ix2 (at128 oI hI i) (at128 oK hK k))) = 0 :=
  Finset.sum_eq_zero fun i _ => by
    rw [hW.above _ _ (by simp only [at128_val]; have := i.isLt; have := k.isLt; omega), mul_zero, mul_zero]

/-- A row block below the diagonal keeps its terms, unweighted. -/
theorem rows_below (oI : Nat) (hI : oI + 128 ≤ 512) (oK : Nat) (hK : oK + 128 ≤ 512) (hgt : oK + 128 ≤ oI) (k : Fin 128) :
    ∑ i : Fin 128, L (ix3 b p (at128 oI hI i))
        * (gram C L b (at128 oI hI i) (at128 oK hK k) * W (ix2 (at128 oI hI i) (at128 oK hK k)))
      = offTerm C L b p oI hI oK hK k := by
  unfold offTerm
  refine Finset.sum_congr rfl fun i _ => ?_
  rw [hW.below _ _ (by simp only [at128_val]; have := i.isLt; have := k.isLt; omega), mul_one]

omit hW in
/-- The diagonal row block, with the weight's diagonal block named. -/
theorem rows_diag (w : Blk) (o : Nat) (ho : o + 128 ≤ 512) (hw : ∀ i k : Fin 128, w (ix2 i k) = W (ix2 (at128 o ho i) (at128 o ho k)))
    (k : Fin 128) :
    ∑ i : Fin 128, L (ix3 b p (at128 o ho i))
        * (gram C L b (at128 o ho i) (at128 o ho k) * W (ix2 (at128 o ho i) (at128 o ho k)))
      = diagTerm C L w b p o ho k := by
  unfold diagTerm
  refine Finset.sum_congr rfl fun i _ => ?_
  rw [hw i k]

/-- Column block 0: every row block contributes. -/
theorem result_block0 (w : Blk) (hw : ∀ i k : Fin 128, w (ix2 i k) = W (ix2 (at128 0 (by decide : 0 + 128 ≤ 512) i) (at128 0 (by decide : 0 + 128 ≤ 512) k))) (k : Fin 128) :
    result C L W (ix3 b p (at128 0 (by decide : 0 + 128 ≤ 512) k))
      = 0 - ((((0 + diagTerm C L w b p 0 (by decide : 0 + 128 ≤ 512) k) + offTerm C L b p 128 (by decide : 128 + 128 ≤ 512) 0 (by decide : 0 + 128 ≤ 512) k)
          + offTerm C L b p 256 (by decide : 256 + 128 ≤ 512) 0 (by decide : 0 + 128 ≤ 512) k) + offTerm C L b p 384 (by decide : 384 + 128 ≤ 512) 0 (by decide : 0 + 128 ≤ 512) k) := by
  rw [result_apply, sum_blocks]
  rw [rows_diag C L W b p w 0 _ hw k, rows_below C L W hW b p 128 _ 0 _ (by decide) k,
    rows_below C L W hW b p 256 _ 0 _ (by decide) k, rows_below C L W hW b p 384 _ 0 _ (by decide) k, zero_sub,
    zero_add (diagTerm C L w b p 0 _ k)]

/-- Column block 1: the first row block lies above the diagonal. -/
theorem result_block1 (w : Blk) (hw : ∀ i k : Fin 128, w (ix2 i k) = W (ix2 (at128 128 (by decide : 128 + 128 ≤ 512) i) (at128 128 (by decide : 128 + 128 ≤ 512) k))) (k : Fin 128) :
    result C L W (ix3 b p (at128 128 (by decide : 128 + 128 ≤ 512) k))
      = 0 - (((0 + diagTerm C L w b p 128 (by decide : 128 + 128 ≤ 512) k) + offTerm C L b p 256 (by decide : 256 + 128 ≤ 512) 128 (by decide : 128 + 128 ≤ 512) k)
          + offTerm C L b p 384 (by decide : 384 + 128 ≤ 512) 128 (by decide : 128 + 128 ≤ 512) k) := by
  rw [result_apply, sum_blocks]
  rw [rows_above C L W hW b p 0 _ 128 _ (by decide) k, rows_diag C L W b p w 128 _ hw k,
    rows_below C L W hW b p 256 _ 128 _ (by decide) k, rows_below C L W hW b p 384 _ 128 _ (by decide) k, zero_sub]

/-- Column block 2: the first two row blocks lie above the diagonal. -/
theorem result_block2 (w : Blk) (hw : ∀ i k : Fin 128, w (ix2 i k) = W (ix2 (at128 256 (by decide : 256 + 128 ≤ 512) i) (at128 256 (by decide : 256 + 128 ≤ 512) k))) (k : Fin 128) :
    result C L W (ix3 b p (at128 256 (by decide : 256 + 128 ≤ 512) k))
      = 0 - ((0 + diagTerm C L w b p 256 (by decide : 256 + 128 ≤ 512) k) + offTerm C L b p 384 (by decide : 384 + 128 ≤ 512) 256 (by decide : 256 + 128 ≤ 512) k) := by
  rw [result_apply, sum_blocks]
  rw [rows_above C L W hW b p 0 _ 256 _ (by decide) k, rows_above C L W hW b p 128 _ 256 _ (by decide) k,
    rows_diag C L W b p w 256 _ hw k, rows_below C L W hW b p 384 _ 256 _ (by decide) k, zero_sub, zero_add]

/-- Column block 3: only the diagonal block is left. -/
theorem result_block3 (w : Blk) (hw : ∀ i k : Fin 128, w (ix2 i k) = W (ix2 (at128 384 (by decide : 384 + 128 ≤ 512) i) (at128 384 (by decide : 384 + 128 ≤ 512) k))) (k : Fin 128) :
    result C L W (ix3 b p (at128 384 (by decide : 384 + 128 ≤ 512) k)) = 0 - (0 + diagTerm C L w b p 384 (by decide : 384 + 128 ≤ 512) k) := by
  rw [result_apply, sum_blocks]
  rw [rows_above C L W hW b p 0 _ 384 _ (by decide) k, rows_above C L W hW b p 128 _ 384 _ (by decide) k,
    rows_above C L W hW b p 256 _ 384 _ (by decide) k, rows_diag C L W b p w 384 _ hw k, zero_sub, zero_add, zero_add]

end

end Cert.Congruence

end
-- ==== Proof.Payloads.lean ====
/-
  What the body stores, column block by column block, read at an entry over the extended reals.

  With C and L the block's 4 batch rows of the two inputs, the body first forms T = C · L. For column block K it
  then adds up, over the row blocks I = K, K+1, …, 3, the products  L[:, I] · (L[:, I]ᵀ · T[:, K])  — the [128,128]
  factor multiplied entrywise by the weight's diagonal block when I = K — starting from zero, and stores 0 minus
  the sum. Entry by entry these are the diagonal and below-diagonal terms of the block-triangular arrangement.
-/
import proofs.«181169_j25237227831465_2_alg».proof.Proof.Gen.KernelIdeal.Skeleton
import proofs.«181169_j25237227831465_2_alg».proof.Proof.BlockOps
import proofs.«181169_j25237227831465_2_alg».proof.Proof.BlockLaw

noncomputable section

namespace Cert.Payloads

open Cert.KernelIdeal Cert.KernelIdeal.Gen Idealize.ShloMosaic Idealize.ShloMosaic.ValueIdx Cert.Congruence Cert.BlockOps

variable [Cert.KernelIdeal.Facts]

/-- The zero word is the extended real 0. -/
theorem zero_word : Scalar.ofBits (F := Ideal) .f32 0x00000000#32 = (0 : EReal) := Ideal.ofBits_zero_f32

/-- The factor's block after the format change is itself. -/
theorem factor_eq (L : Vec Ideal S4x512x512 .f32) : k0_pay3 (F := Ideal) L = L := rfl

/-- T = C · L, entry by entry. -/
theorem prod_apply (C L : Vec Ideal S4x512x512 .f32) (b : Fin 4) (q c : Fin 512) :
    k0_pay4 (F := Ideal) C L (ix3 b q c) = prod C L b q c := by
  unfold k0_pay4 prod
  simp only [truncf_apply, full_apply, factor_eq]

/-- Column block 3: only the diagonal row block. -/
theorem col3 (C L : Vec Ideal S4x512x512 .f32) (T : FVec Ideal S4x512x512 .bf16) (hT : ∀ b q c, T (ix3 b q c) = prod C L b q c)
    (w : Vec Ideal S128x128 .f32) (b : Fin 4) (p : Fin 512) (k : Fin 128) :
    k0_pay2 (F := Ideal) L T w (ix3 b p k) = 0 - (0 + diagTerm C L w b p 384 (by decide) k) := by
  unfold k0_pay2 diagTerm gram
  simp only [subf_apply, addf_apply, broadcast_apply, truncf_apply, mulf_apply, slab_apply, gram_apply, spread_apply,
    slab_col _ 384 (by decide), hT, zero_word]

/-- Column block 2: the diagonal row block and the one below it. -/
theorem col2 (C L : Vec Ideal S4x512x512 .f32) (T : FVec Ideal S4x512x512 .bf16) (hT : ∀ b q c, T (ix3 b q c) = prod C L b q c)
    (w : Vec Ideal S128x128 .f32) (b : Fin 4) (p : Fin 512) (k : Fin 128) :
    k0_pay1 (F := Ideal) L T (k0_pay7 (F := Ideal)) (k0_pay8 (F := Ideal) L T w) (ix3 b p k)
      = 0 - ((0 + diagTerm C L w b p 256 (by decide) k) + offTerm C L b p 384 (by decide) 256 (by decide) k) := by
  unfold k0_pay1 k0_pay7 k0_pay8 diagTerm offTerm gram
  simp only [subf_apply, addf_apply, broadcast_apply, truncf_apply, mulf_apply, slab_apply, gram_apply, spread_apply,
    slab_col _ 256 (by decide), slab_col _ 384 (by decide), hT, zero_word]

/-- Column block 1: the diagonal row block and the two below it. -/
theorem col1 (C L : Vec Ideal S4x512x512 .f32) (T : FVec Ideal S4x512x512 .bf16) (hT : ∀ b q c, T (ix3 b q c) = prod C L b q c)
    (w : Vec Ideal S128x128 .f32) (b : Fin 4) (p : Fin 512) (k : Fin 128) :
    k0_pay6 (F := Ideal) L T w (ix3 b p k)
      = 0 - (((0 + diagTerm C L w b p 128 (by decide) k) + offTerm C L b p 256 (by decide) 128 (by decide) k)
          + offTerm C L b p 384 (by decide) 128 (by decide) k) := by
  unfold k0_pay6 diagTerm offTerm gram
  simp only [subf_apply, addf_apply, broadcast_apply, truncf_apply, mulf_apply, slab_apply, gram_apply, spread_apply,
    slab_col _ 128 (by decide), slab_col _ 256 (by decide), slab_col _ 384 (by decide), hT, zero_word]

/-- Column block 0: all four row blocks. -/
theorem col0 (C L : Vec Ideal S4x512x512 .f32) (w : Vec Ideal S128x128 .f32) (b : Fin 4) (p : Fin 512) (k : Fin 128) :
    k0_pay5 (F := Ideal) C L w (ix3 b p k)
      = 0 - ((((0 + diagTerm C L w b p 0 (by decide) k) + offTerm C L b p 128 (by decide) 0 (by decide) k)
          + offTerm C L b p 256 (by decide) 0 (by decide) k) + offTerm C L b p 384 (by decide) 0 (by decide) k) := by
  unfold k0_pay5 diagTerm offTerm gram
  simp only [subf_apply, addf_apply, broadcast_apply, truncf_apply, mulf_apply, slab_apply, gram_apply, spread_apply,
    slab_col _ 0 (by decide), slab_col _ 128 (by decide), slab_col _ 256 (by decide), slab_col _ 384 (by decide),
    factor_eq, prod_apply, zero_word]

end Cert.Payloads

end
-- ==== Proof.Tiles.lean ====
/-
  What the body leaves in the output block: the four stored tiles are one function.

  The body stores the output block in four tiles, one per column block of 128. Each tile's value at (b, p, k) is the
  result R[b, p, o + k] of the block's own inputs (the payload read at an entry, then the block-triangular law), and the
  tile sits at columns o … o + 127, so all four agree with the one function R of the block index. The weight
  blocks the body loads are the diagonal blocks of the whole weight matrix, which every grid point sees entire.
-/
import proofs.«181169_j25237227831465_2_alg».proof.Proof.Gen.KernelIdeal.Frame
import proofs.«181169_j25237227831465_2_alg».proof.Proof.Payloads

set_option maxRecDepth 16384

noncomputable section

namespace Cert.Tiles

open Cert.KernelIdeal Cert.KernelIdeal.Gen Idealize.ShloMosaic Idealize.ShloMosaic.ValueIdx Cert.Congruence Cert.Payloads

theorem zeros3 : (![0, 0, 0] : Fin 3 → Nat) = fun _ => 0 := funext fun a => by fin_cases a <;> rfl

/-- The [128,128] block of the weight loaded at (o, o) is its diagonal block there. -/
theorem diag_block (W : Vec Ideal S512x512 .f32) (o : Nat) (ho : o + 128 ≤ 512)
    (inb : ∀ a, (![o, o] : Fin 2 → Nat) a + S128x128.size a ≤ S512x512.size a) (i k : Fin 128) :
    View.ld W (Rect.unit (s := S512x512) ![o, o] S128x128.size inb) (ix2 i k) = W (ix2 (at128 o ho i) (at128 o ho k)) := by
  show W ((Rect.unit (s := S512x512) ![o, o] S128x128.size inb).idx (ix2 i k)) = _
  congr 1; funext a
  match a with
  | ⟨0, _⟩ => apply Fin.ext; show o + 1 * i.val = o + i.val; omega
  | ⟨1, _⟩ => apply Fin.ext; show o + 1 * k.val = o + k.val; omega

/-- The tile at column offset o puts its entry (b, p, k) at the block's entry (b, p, o + k). -/
theorem tile_index (o : Nat) (ho : o + 128 ≤ 512)
    (inb : ∀ a, (![0, 0, o] : Fin 3 → Nat) a + S4x512x128.size a ≤ S4x512x512.size a) (b : Fin 4) (p : Fin 512) (k : Fin 128) :
    (Rect.unit (s := S4x512x512) ![0, 0, o] S4x512x128.size inb).idx (ix3 b p k) = ix3 b p (at128 o ho k) := by
  funext a
  match a with
  | ⟨0, _⟩ => apply Fin.ext; show 0 + 1 * b.val = b.val; omega
  | ⟨1, _⟩ => apply Fin.ext; show 0 + 1 * p.val = p.val; omega
  | ⟨2, _⟩ => apply Fin.ext; show o + 1 * k.val = o + k.val; omega

/-- The output block after the body, from the blocks C and L of the inputs and the weight matrix W (triangular):
    it is R = -(L · ((Lᵀ · (C · L)) ∘ W)) of the block's four batch rows. -/
theorem block_value (C L : Vec Ideal S4x512x512 .f32) (W : Vec Ideal S512x512 .f32) (hW : Triangular W) :
    out0_3 (F := Ideal) C L W = result C L W := by
  funext y
  unfold out0_3
  simp only [View.ld_unit_zero (S := S4x512x512) zeros3]
  refine View.canon_apply_of_pieces (Val := Elt Ideal) (result C L W) _ ?_ y (cover0_3 _ _ _ _ y)
  intro pc hpc x
  have hT : ∀ (b : Fin 4) (q c : Fin 512), k0_pay4 (F := Ideal) C L (ix3 b q c) = prod C L b q c := prod_apply C L
  rcases List.mem_cons.mp hpc with rfl | hpc
  · -- the tile of column block 3: columns 384 … 511
    obtain ⟨b, p, k, rfl⟩ : ∃ (b : Fin 4) (p : Fin 512) (k : Fin 128), x = ix3 b p k := ⟨x 0, x 1, x 2, eq_ix3 x⟩
    show k0_pay2 (F := Ideal) (k0_pay3 L) (k0_pay4 C L) (View.ld W r0_7) (ix3 b p k) = result C L W (r0_8.idx (ix3 b p k))
    rw [tile_index 384 (by decide) _ b p k]
    refine (col3 C L (k0_pay4 C L) hT (View.ld W r0_7) b p k).trans ?_
    exact (result_block3 C L W hW b p (View.ld W r0_7) (fun i k => diag_block W 384 (by decide) _ i k) k).symm
  rcases List.mem_cons.mp hpc with rfl | hpc
  · -- the tile of column block 2: columns 256 … 383
    obtain ⟨b, p, k, rfl⟩ : ∃ (b : Fin 4) (p : Fin 512) (k : Fin 128), x = ix3 b p k := ⟨x 0, x 1, x 2, eq_ix3 x⟩
    show k0_pay1 (F := Ideal) (k0_pay3 L) (k0_pay4 C L) (k0_pay7 (F := Ideal)) (k0_pay8 (F := Ideal) (k0_pay3 L) (k0_pay4 C L) (View.ld W r0_5)) (ix3 b p k) = result C L W (r0_6.idx (ix3 b p k))
    rw [tile_index 256 (by decide) _ b p k]
    refine (col2 C L (k0_pay4 C L) hT (View.ld W r0_5) b p k).trans ?_
    exact (result_block2 C L W hW b p (View.ld W r0_5) (fun i k => diag_block W 256 (by decide) _ i k) k).symm
  rcases List.mem_cons.mp hpc with rfl | hpc
  · -- the tile of column block 1: columns 128 … 255
    obtain ⟨b, p, k, rfl⟩ : ∃ (b : Fin 4) (p : Fin 512) (k : Fin 128), x = ix3 b p k := ⟨x 0, x 1, x 2, eq_ix3 x⟩
    show k0_pay6 (F := Ideal) (k0_pay3 L) (k0_pay4 C L) (View.ld W r0_3) (ix3 b p k) = result C L W (r0_4.idx (ix3 b p k))
    rw [tile_index 128 (by decide) _ b p k]
    refine (col1 C L (k0_pay4 C L) hT (View.ld W r0_3) b p k).trans ?_
    exact (result_block1 C L W hW b p (View.ld W r0_3) (fun i k => diag_block W 128 (by decide) _ i k) k).symm
  rcases List.mem_cons.mp hpc with rfl | hpc
  · -- the tile of column block 0: columns 0 … 127
    obtain ⟨b, p, k, rfl⟩ : ∃ (b : Fin 4) (p : Fin 512) (k : Fin 128), x = ix3 b p k := ⟨x 0, x 1, x 2, eq_ix3 x⟩
    show k0_pay5 (F := Ideal) C L (View.ld W r0_1) (ix3 b p k) = result C L W (r0_2.idx (ix3 b p k))
    rw [tile_index 0 (by decide) _ b p k]
    refine (col0 C L (View.ld W r0_1) b p k).trans ?_
    exact (result_block0 C L W hW b p (View.ld W r0_1) (fun i k => diag_block W 0 (by decide) _ i k) k).symm
  nomatch hpc

end Cert.Tiles

end
-- ==== Proof.BlockGeometry.lean ====
/-
  Where the blocks sit, for arbitrary arrays.

  The grid has 32 points; point t stages batch rows 4t … 4t+3 of the two inputs and of the output, and the whole
  weight matrix. Since R is computed batch row by batch row, R of the inputs' blocks at point t, laid at the output's
  block at point t, is the block at point t of R of the whole arrays; and the 32 output blocks tile the array. All of
  it is stated for arbitrary arrays: nothing here looks at how the arrays were made.
-/
import proofs.«181169_j25237227831465_2_alg».proof.Proof.Gen.KernelIdeal.Frame
import proofs.«181169_j25237227831465_2_alg».proof.Proof.Tiles

set_option maxRecDepth 16384

noncomputable section

namespace Cert.Congruence

open Idealize.ShloMosaic Idealize.ShloMosaic.ValueIdx

/-- R is computed batch row by batch row: if C', L' are the batch rows f(b) of C, L, then R of them is the rows f(b) of R. -/
theorem result_rows {B B' : Nat} (C L : Batch B) (C' L' : Batch B') (W : Mat) (f : Fin B' → Fin B)
    (hC : ∀ b j l, C' (ix3 b j l) = C (ix3 (f b) j l)) (hL : ∀ b j l, L' (ix3 b j l) = L (ix3 (f b) j l))
    (b : Fin B') (p q : Fin 512) : result C' L' W (ix3 b p q) = result C L W (ix3 (f b) p q) := by
  rw [result_apply, result_apply]
  unfold gram prod
  simp only [hC, hL]

end Cert.Congruence

namespace Cert.BlockGeometry

open Cert.KernelIdeal Cert.KernelIdeal.Gen Idealize.ShloMosaic Idealize.ShloMosaic.TcCoe Idealize.SL.Sem
open Idealize.ShloMosaic.ValueIdx Cert.Congruence

/-- The printed index maps, decided over the 32 grid points: the two inputs and the output move one block of 4 batch rows
    per point, on the first axis only; the weight matrix stays put. -/
theorem index_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- Batch row 4t + b of the arrays: row b of the block at grid point t. -/
def row (t : Fin cfg0.N) (b : Fin 4) : Fin 128 :=
  ⟨4 * t.val + b.val, by have ht : t.val < 32 := t.isLt; have := b.isLt; omega⟩

/-- Input 0 (the covariance): the block at point t of ANY array is its batch rows 4t … 4t+3. -/
theorem read0 (t : Fin cfg0.N) (A : S128x512x512.Idx → Ideal .f32) (b : Fin 4) (p q : Fin 512) :
    ((cfg0.win 0).blk t).view.read (Elt Ideal) A (ix3 b p q) = A (ix3 (row t b) p q) := by
  obtain ⟨e0, e1, e2, -⟩ := index_facts t
  show A (((cfg0.win 0).blk t).view.emb (ix3 b p q)) = _
  refine congrArg A (funext fun a => Fin.ext ?_)
  match a with
  | ⟨0, _⟩ => show win0_0.index t (0 : Fin 3) * 4 + 1 * b.val = 4 * t.val + b.val; omega
  | ⟨1, _⟩ => show win0_0.index t (1 : Fin 3) * 512 + 1 * p.val = p.val; omega
  | ⟨2, _⟩ => show win0_0.index t (2 : Fin 3) * 512 + 1 * q.val = q.val; omega

/-- Input 1 (the factor): the block at point t of ANY array is its batch rows 4t … 4t+3. -/
theorem read1 (t : Fin cfg0.N) (A : S128x512x512.Idx → Ideal .f32) (b : Fin 4) (p q : Fin 512) :
    ((cfg0.win 1).blk t).view.read (Elt Ideal) A (ix3 b p q) = A (ix3 (row t b) p q) := by
  obtain ⟨-, -, -, e0, e1, e2, -⟩ := index_facts t
  show A (((cfg0.win 1).blk t).view.emb (ix3 b p q)) = _
  refine congrArg A (funext fun a => Fin.ext ?_)
  match a with
  | ⟨0, _⟩ => show win0_1.index t (0 : Fin 3) * 4 + 1 * b.val = 4 * t.val + b.val; omega
  | ⟨1, _⟩ => show win0_1.index t (1 : Fin 3) * 512 + 1 * p.val = p.val; omega
  | ⟨2, _⟩ => show win0_1.index t (2 : Fin 3) * 512 + 1 * q.val = q.val; omega

/-- Every point's block of the weight matrix is the whole matrix. -/
theorem read2 (t : Fin cfg0.N) (A : S512x512.Idx → Ideal .f32) :
    ((cfg0.win 2).blk t).view.read (Elt Ideal) A = A := by
  obtain ⟨-, -, -, -, -, -, e0, e1, -⟩ := index_facts t
  funext y
  show A (((cfg0.win 2).blk t).view.emb y) = A y
  refine congrArg A (funext fun a => Fin.ext ?_)
  match a with
  | ⟨0, _⟩ => show win0_2.index t (0 : Fin 2) * 512 + 1 * (y 0).val = (y 0).val; omega
  | ⟨1, _⟩ => show win0_2.index t (1 : Fin 2) * 512 + 1 * (y 1).val = (y 1).val; omega

/-- The output block at point t sits at batch rows 4t … 4t+3. -/
theorem out_index (t : Fin cfg0.N) (b : Fin 4) (p q : Fin 512) :
    ((cfg0.win 3).blk t).view.emb (ix3 b p q) = ix3 (row t b) p q := by
  obtain ⟨-, -, -, -, -, -, -, -, e0, e1, e2⟩ := index_facts t
  funext a
  apply Fin.ext
  match a with
  | ⟨0, _⟩ => show win0_3.index t (0 : Fin 3) * 4 + 1 * b.val = 4 * t.val + b.val; omega
  | ⟨1, _⟩ => show win0_3.index t (1 : Fin 3) * 512 + 1 * p.val = p.val; omega
  | ⟨2, _⟩ => show win0_3.index t (2 : Fin 3) * 512 + 1 * q.val = q.val; omega

/-- What the body leaves at point t, from the blocks of ANY arrays A0, A1 and a triangular A2, is block t of R of them. -/
theorem block_of_result (t : Fin cfg0.N) (A0 A1 : S128x512x512.Idx → Ideal .f32) (A2 : S512x512.Idx → Ideal .f32)
    (hW : Triangular A2) :
    (cfg0.win 3).cut (grid0.coords t)
        (out0_3 (F := Ideal) (((cfg0.win 0).blk t).view.read (Elt Ideal) A0) (((cfg0.win 1).blk t).view.read (Elt Ideal) A1)
          (((cfg0.win 2).blk t).view.read (Elt Ideal) A2))
      = ((cfg0.win 3).blk t).view.read (Elt Ideal) (result A0 A1 A2) := by
  rw [read2 t A2, Cert.Tiles.block_value _ _ A2 hW]
  funext j
  obtain ⟨b, p, q, rfl⟩ : ∃ (b : Fin 4) (p q : Fin 512), j = ix3 b p q := ⟨j 0, j 1, j 2, eq_ix3 j⟩
  show result (((cfg0.win 0).blk t).view.read (Elt Ideal) A0) (((cfg0.win 1).blk t).view.read (Elt Ideal) A1) A2 (ix3 b p q)
    = result A0 A1 A2 (((cfg0.win 3).blk t).view.emb (ix3 b p q))
  rw [out_index t b p q]
  exact result_rows A0 A1 _ _ A2 (row t) (read0 t A0) (read1 t A1) b p q

/-- An index of the array is in point t's block iff each coordinate is in the block's range on its axis. -/
theorem mem_blk (t : Fin cfg0.N) (i : S128x512x512.Idx) :
    i ∈ ((cfg0.win 3).blk t).view.set ↔ ∀ a : Fin 3, win0_3.index t a * S4x512x512.size a ≤ (i a).val
      ∧ (i a).val < win0_3.index t a * S4x512x512.size a + S4x512x512.size a := by
  show i ∈ ((View.whole main_v11).slice (win0_3.rect t)).set ↔ _
  rw [View.set_slice_whole, Rect.mem_set_unit]
  exact Iff.rfl

/-- The 32 blocks tile the array: batch row n is in the block of point n / 4. -/
theorem cover (i : S128x512x512.Idx) :
    ∃ t : Fin cfg0.N, (cfg0.win 3).flush t = true ∧ i ∈ ((cfg0.win 3).blk t).view.set := by
  have h0 : (i 0).val < 128 := (i 0).isLt
  have h1 : (i 1).val < 512 := (i 1).isLt
  have h2 : (i 2).val < 512 := (i 2).isLt
  have hlt : (i 0).val / 4 < cfg0.N := by show (i 0).val / 4 < 32; omega
  obtain ⟨-, -, -, -, -, -, -, -, e0, e1, e2⟩ := index_facts ⟨(i 0).val / 4, hlt⟩
  have e0' : win0_3.index ⟨(i 0).val / 4, hlt⟩ (0 : Fin 3) = (i 0).val / 4 := e0
  refine ⟨⟨(i 0).val / 4, hlt⟩, flush0_3 _, ?_⟩
  rw [mem_blk]
  intro a
  match a with
  | ⟨0, _⟩ =>
    show win0_3.index ⟨(i 0).val / 4, hlt⟩ (0 : Fin 3) * 4 ≤ (i 0).val
      ∧ (i 0).val < win0_3.index ⟨(i 0).val / 4, hlt⟩ (0 : Fin 3) * 4 + 4
    omega
  | ⟨1, _⟩ =>
    show win0_3.index ⟨(i 0).val / 4, hlt⟩ (1 : Fin 3) * 512 ≤ (i 1).val
      ∧ (i 1).val < win0_3.index ⟨(i 0).val / 4, hlt⟩ (1 : Fin 3) * 512 + 512
    omega
  | ⟨2, _⟩ =>
    show win0_3.index ⟨(i 0).val / 4, hlt⟩ (2 : Fin 3) * 512 ≤ (i 2).val
      ∧ (i 2).val < win0_3.index ⟨(i 0).val / 4, hlt⟩ (2 : Fin 3) * 512 + 512
    omega

end Cert.BlockGeometry

end
-- ==== Proof.Mask.lean ====
/-
  The 512 × 512 weight matrix both programs build on the host before anything else:

      W = tril(ones, -1) + 0.5 · eye

  entry (j, c) is  (if j - 1 ≥ c then 1 else 0) + 0.5 · [j = c],  the comparison on 32-bit signed words of the row
  and column numbers. Below the diagonal (c < j) that is 1 + 0.5 · 0 = 1, above it (j < c) it is 0 + 0.5 · 0 = 0.
-/
import proofs.«181169_j25237227831465_2_alg».proof.Proof.Spec
import Idealize.ShloMosaic.Lib.Pipeline.Value
import Idealize.ShloMosaic.Lib.IdealHost
import Idealize.ShloMosaic.Lib.Affine

noncomputable section

namespace Cert.Mask

open Idealize.ShloMosaic Idealize.ShloMosaic.ValueIdx

abbrev S0 : Shape := ⟨0, ![]⟩
abbrev S512 : Shape := ⟨2, ![512, 512]⟩

/-- The weight matrix as the host lines compute it, over any float instance: the strict lower triangle of ones
    (row - 1 ≥ column, signed) plus one half of the identity (row = column). -/
def weight {F : FTy → Type} [FloatOps F] (h : S0.BroadcastsInDim S512 ![]) : S512.Idx → F .f32 :=
  addf
    (select
      (cmpi .sge (addi (iotaInDim S512 32 0) (broadcastInDim S512 ![] h (constantI S0 32 4294967295#32))) (iotaInDim S512 32 1))
      (broadcastInDim S512 ![] h (constant S0 .f32 0x3F800000#32))
      (broadcastInDim S512 ![] h (constant S0 .f32 0x00000000#32)))
    (mulf (broadcastInDim S512 ![] h (constant S0 .f32 0x3F000000#32))
      (uitofp .f32 (cmpi .eq (addi (iotaInDim S512 32 0) (broadcastInDim S512 ![] h (constantI S0 32 0#32))) (iotaInDim S512 32 1))))

/-- A row or column number below 512, as a 32-bit word read signed, is itself. -/
theorem toInt_ofNat_lt (n : Nat) (hn : n < 512) : (BitVec.ofNat 32 n).toInt = (n : Int) := by
  rw [BitVec.toInt_eq_toNat_cond, BitVec.toNat_ofNat]
  have : n % 2 ^ 32 = n := Nat.mod_eq_of_lt (by omega)
  rw [this]
  split <;> omega

/-- Adding the word of all ones to a row number below 512 and reading signed gives the row number less one
    (for row 0 that is -1). -/
theorem toInt_pred (n : Nat) (hn : n < 512) : (BitVec.ofNat 32 n + 4294967295#32).toInt = (n : Int) - 1 := by
  rw [BitVec.toInt_eq_toNat_cond, BitVec.toNat_add, BitVec.toNat_ofNat]
  have : n % 2 ^ 32 = n := Nat.mod_eq_of_lt (by omega)
  rw [this]
  have h2 : (4294967295#32).toNat = 4294967295 := rfl
  rw [h2]
  split <;> omega

/-- The strict-lower-triangle condition, row - 1 ≥ column signed, holds exactly below the diagonal. -/
theorem sge_below (j c : Fin 512) (hjc : c.val < j.val) :
    IntOp.cmpi .sge (BitVec.ofNat 32 j.val + 4294967295#32) (BitVec.ofNat 32 c.val) = 1#1 := by
  rw [IntOp.cmpi_sge, toInt_pred j.val j.isLt, toInt_ofNat_lt c.val c.isLt]
  omega

/-- On and above the diagonal it fails. -/
theorem sge_above (j c : Fin 512) (hjc : j.val ≤ c.val) :
    IntOp.cmpi .sge (BitVec.ofNat 32 j.val + 4294967295#32) (BitVec.ofNat 32 c.val) = 0#1 := by
  refine eq_zero_of_ne_one ?_
  rw [IntOp.cmpi_sge, toInt_pred j.val j.isLt, toInt_ofNat_lt c.val c.isLt]
  omega

/-- Off the diagonal the identity's condition, row = column, fails. -/
theorem eq_off (j c : Fin 512) (hjc : j.val ≠ c.val) :
    IntOp.cmpi .eq (BitVec.ofNat 32 j.val + 0#32) (BitVec.ofNat 32 c.val) = 0#1 := by
  refine eq_zero_of_ne_one ?_
  rw [IntOp.cmpi_eq]
  intro e
  have e' := congrArg BitVec.toInt e
  rw [BitVec.add_zero, toInt_ofNat_lt j.val j.isLt, toInt_ofNat_lt c.val c.isLt] at e'
  omega

/-- The weight read at row j and column c. -/
theorem weight_apply (h : S0.BroadcastsInDim S512 ![]) (j c : Fin 512) :
    weight (F := Ideal) h (ix2 j c)
      = Scalar.select (IntOp.cmpi .sge (BitVec.ofNat 32 j.val + 4294967295#32) (BitVec.ofNat 32 c.val)) (1 : EReal) 0
        + Ideal.ofBits .f32 0x3F000000#32
          * (((IntOp.cmpi .eq (BitVec.ofNat 32 j.val + 0#32) (BitVec.ofNat 32 c.val)).toNat : ℝ) : EReal) := by
  unfold weight
  rw [addf_apply, select_apply, mulf_apply]
  have bF : ∀ x : S0.Idx → Ideal .f32, broadcastInDim S512 ![] h x (ix2 j c) = x ix0 :=
    fun x => broadcastInDim_scalar_apply h x _
  have bI : ∀ x : IVec S0 32, broadcastInDim S512 ![] h x (ix2 j c) = x ix0 :=
    fun x => broadcastInDim_scalar_apply h x _
  rw [bF, bF, bF, constant_apply, constant_apply, constant_apply, Ideal.ofBits_one_f32, Ideal.ofBits_zero_f32]
  unfold cmpi addi uitofp
  simp only [bI, iotaInDim_apply]
  rfl

/-- Over the extended reals the weight vanishes above the diagonal and is 1 below it. -/
theorem weight_triangular (h : S0.BroadcastsInDim S512 ![]) : Cert.Congruence.Triangular (weight (F := Ideal) h) := by
  refine ⟨fun j c hjc => ?_, fun j c hjc => ?_⟩
  · rw [weight_apply, sge_above j c (by omega), eq_off j c (by omega), select_zero]
    simp
  · rw [weight_apply, sge_below j c hjc, eq_off j c (by omega), select_one]
    simp

end Cert.Mask

end
-- ==== Proof.HostWeight.lean ====
/-
  The weight matrix as the kernel's region finds it.

  Before the region the kernel's program runs the same host lines as the reference: a constant 1 spread to
  [512,512]; the lower-triangle function (nine operations: row numbers less one against column numbers, signed,
  selecting 1 or 0); then the identity (row = column) times one half, added on. Their composition at the buffer the
  region stages as its third operand is the weight matrix tril(ones,-1) + 0.5·eye.
-/
import proofs.«181169_j25237227831465_2_alg».proof.Proof.Gen.KernelIdeal.Frame
import proofs.«181169_j25237227831465_2_alg».proof.Proof.Mask
import Idealize.ShloMosaic.Lib.StableHlo.Run

set_option maxRecDepth 16384

noncomputable section

namespace Cert.HostWeight

open Cert.KernelIdeal Cert.KernelIdeal.Gen Idealize.ShloMosaic Idealize.ShloMosaic.TcCoe Idealize.SL.Sem
open Idealize.ShloMosaic.StableHlo

section
variable {F : FTy → Type} [FloatOps F]

/-- The nine operations of the lower-triangle function at its one call, each over the buffer the call gives its value. -/
abbrev trilOps : List (HloOp τ sig (Elt F)) :=
  [ nullary main_call0_v0 (iotaInDim S512x512 32 0),
    nullary main_call0_c (constantI S_ 32 4294967295#32),
    unary main_call0_c main_call0_v1 (broadcastInDim S512x512 ![] bcast_S_S512x512 : (⟨S_, .i32⟩ : BufTy).Contents (Elt F) → (⟨S512x512, .i32⟩ : BufTy).Contents (Elt F)),
    binary main_call0_v0 main_call0_v1 main_call0_v2 (addi : (⟨S512x512, .i32⟩ : BufTy).Contents (Elt F) → (⟨S512x512, .i32⟩ : BufTy).Contents (Elt F) → (⟨S512x512, .i32⟩ : BufTy).Contents (Elt F)),
    nullary main_call0_v3 (iotaInDim S512x512 32 1),
    binary main_call0_v2 main_call0_v3 main_call0_v4 (cmpi .sge : (⟨S512x512, .i32⟩ : BufTy).Contents (Elt F) → (⟨S512x512, .i32⟩ : BufTy).Contents (Elt F) → (⟨S512x512, .i1⟩ : BufTy).Contents (Elt F)),
    nullary main_call0_cst (constant S_ .f32 0x00000000#32),
    unary main_call0_cst main_call0_v5 (broadcastInDim S512x512 ![] bcast_S_S512x512 : (⟨S_, .f32⟩ : BufTy).Contents (Elt F) → (⟨S512x512, .f32⟩ : BufTy).Contents (Elt F)),
    ternary main_call0_v4 main_v0 main_call0_v5 main_v1 (select : (⟨S512x512, .i1⟩ : BufTy).Contents (Elt F) → (⟨S512x512, .f32⟩ : BufTy).Contents (Elt F) → (⟨S512x512, .f32⟩ : BufTy).Contents (Elt F) → (⟨S512x512, .f32⟩ : BufTy).Contents (Elt F)) ]

/-- The called function's operations are these: its typed references are the call's buffers. -/
theorem tril_eq : (hostOps0_1 : List (HloOp τ sig (Elt F))) = trilOps := rfl

end

variable (m : (ℓ : Loc nD τ sig) → Buf (Elt Ideal) ℓ)

set_option maxRecDepth 65536 in
set_option maxHeartbeats 2000000 in
/-- The weight matrix as the region finds it: what the host lines before the region computed. -/
theorem weight_found (c : Dev nD) :
    (V m c main_v10 : S512x512.Idx → Ideal .f32) = Cert.Mask.weight (F := Ideal) bcast_S_S512x512 := by
  show StableHlo.after (List.flatten [hostOps0, trilOps, hostOps0_2]) (fun b => m (c, b)) (Proc.devRef .tc main_v10) = _
  simp only [hostOps0, trilOps, hostOps0_2, List.flatten_cons, List.flatten_nil, List.append_nil, List.cons_append,
    List.nil_append]
  after_results_simp
  rfl

end Cert.HostWeight

end
-- ==== Proof.KernelValue.lean ====
/-
  The kernel's result array after the run.

  What grid point t writes back is the body's result on the blocks of the arrays as the region finds them: the two
  arguments, untouched by the host lines, and the weight matrix those lines built. By the geometry of the blocks that
  is block t of R of those arrays, and the 32 blocks tile the output, so the output array ends at R of the arguments
  and the weight matrix.
-/
import proofs.«181169_j25237227831465_2_alg».proof.Proof.Gen.KernelIdeal.Value
import proofs.«181169_j25237227831465_2_alg».proof.Proof.BlockGeometry
import proofs.«181169_j25237227831465_2_alg».proof.Proof.HostWeight

set_option maxRecDepth 16384

noncomputable section

namespace Cert.KernelValue

open Cert.KernelIdeal Cert.KernelIdeal.Gen Cert.KernelIdeal.Value Idealize.ShloMosaic Idealize.ShloMosaic.TcCoe Idealize.SL.Sem
open Idealize.ShloMosaic.ValueIdx Cert.Congruence Cert.BlockGeometry
open Idealize.ShloMosaic.Pipeline (Dat)

variable (m : (ℓ : Loc nD τ sig) → Buf (Elt Ideal) ℓ) (ρ : Dev nD → PrngReg)

/-- The result array: R of the two argument arrays and the weight matrix. -/
def whole (c : Dev nD) : S128x512x512.Idx → Ideal .f32 :=
  result (B := 128) (m ((c : Thread nD τ).loc main_arg1)) (m ((c : Thread nD τ).loc main_arg2))
    (Cert.Mask.weight (F := Ideal) bcast_S_S512x512)

/-- What point t writes back is block t of the result array. -/
theorem flushed_eq (c : Dev nD) (t : Fin cfg0.N) :
    (dats m 0 c).flushed 3 t = ((cfg0.win 3).blk t).view.read (Elt Ideal) (whole m c) := by
  have hW : Triangular (V m c (Pipeline.arrRef spec0 2)) := by
    have h := Cert.Mask.weight_triangular bcast_S_S512x512
    rw [← Cert.HostWeight.weight_found m c] at h
    exact h
  have hA0 : m ((c : Thread nD τ).loc main_arg1) = V m c (Pipeline.arrRef spec0 0) := (V_main_arg1 m c).symm
  have hA1 : m ((c : Thread nD τ).loc main_arg2) = V m c (Pipeline.arrRef spec0 1) := (V_main_arg2 m c).symm
  have hA2 : Cert.Mask.weight (F := Ideal) bcast_S_S512x512 = V m c (Pipeline.arrRef spec0 2) :=
    (Cert.HostWeight.weight_found m c).symm
  rw [flushed3 m c t]
  unfold whole iblk
  rw [hA0, hA1, hA2]
  generalize V m c (Pipeline.arrRef spec0 0) = A0
  generalize V m c (Pipeline.arrRef spec0 1) = A1
  generalize V m c (Pipeline.arrRef spec0 2) = A2 at hW ⊢
  exact block_of_result t A0 A1 A2 hW

/-- The output array after the run is the result array. -/
theorem final (c : Dev nD) : (dats m 0 c).arrAt 3 cfg0.N = whole m c :=
  (dats m 0 c).arrAt_eq_of_cover 3 (whole m c) (fun t _ => flushed_eq m c t) cover

/-- The kernel's run: the output array ends at the result array, the arguments unchanged. -/
theorem run : θ_run defs (onTc (τ := τ) (main (F := Ideal))) ⟨m, fun _ => 0, ρ⟩ fun r => ∀ c : Dev nD,
      r.2.mem ((c : Thread nD τ).loc main_v11) = whole m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelValue

end
-- ==== Proof.RefRun.lean ====
/-
  The run of the reference program, read back to the specification.

  The reference is a straight line of thirty host operations on whole arrays: the transpose Lᵀ, the three
  batched matrix products C·L, Lᵀ·(C·L) and L·(…), the eleven operations of the strict lower triangle of ones
  (the constant one, its broadcast and the nine of the called function), the ten of one half of the identity and
  their sum (together the weight matrix W), its two broadcasts over the batch, the entrywise product with W and
  the final negation. Every weakly fair execution of it terminates
  with each buffer at the fold of these operations over the launch contents; read at the result buffer that
  fold is the composed term  -(L · ((Lᵀ · (C · L)) ∘ W)),  and read entry by entry that term is the
  specification's  R[r,c] = -∑ j, L[r,j] · (G[j,c] · W[j,c]).
-/
import proofs.«181169_j25237227831465_2_alg».proof.Proof.Gen.ReferenceIdeal
import proofs.«181169_j25237227831465_2_alg».proof.Proof.Mask
import Idealize.ShloMosaic.Lib.StableHlo.Run
import Idealize.ShloMosaic.Lib.Pipeline.Value
import Idealize.ShloMosaic.Lib.ValueIdx
import Idealize.ShloMosaic.PureOps.Ideal.Laws

noncomputable section

open scoped BigOperators

namespace Cert.RefRun

open Cert.ReferenceIdeal Cert.ReferenceIdeal.Gen Idealize.ShloMosaic Idealize.ShloMosaic.TcCoe Idealize.SL.Sem
  Idealize.ShloMosaic.StableHlo Idealize.ShloMosaic.ValueIdx

/-! ## The program as a list of operations -/

section Steps

variable {F : FTy → Type} [FloatOps F]

/-- The thirty operations in program order; the nine of the called lower-triangle function stand at the call,
    each over the buffer that call gives its value. -/
abbrev steps : List (HloOp τ sig (Elt F)) :=
  [ unary main_arg2 main_v0 ((transpose S128x512x512 [0, 2, 1] · transposes_S128x512x512_S128x512x512_0_2_1) : (⟨S128x512x512, .f32⟩ : BufTy).Contents (Elt F) → (⟨S128x512x512, .f32⟩ : BufTy).Contents (Elt F)),
    binary main_arg1 main_arg2 main_v1 ((fun l r => Host.dotGeneral dot_S128x512x512_S128x512x512_S128x512x512_2_1_1_2_0_0 none l r) : (⟨S128x512x512, .f32⟩ : BufTy).Contents (Elt F) → (⟨S128x512x512, .f32⟩ : BufTy).Contents (Elt F) → (⟨S128x512x512, .f32⟩ : BufTy).Contents (Elt F)),
    binary main_v0 main_v1 main_v2 ((fun l r => Host.dotGeneral dot_S128x512x512_S128x512x512_S128x512x512_2_1_1_2_0_0 none l r) : (⟨S128x512x512, .f32⟩ : BufTy).Contents (Elt F) → (⟨S128x512x512, .f32⟩ : BufTy).Contents (Elt F) → (⟨S128x512x512, .f32⟩ : BufTy).Contents (Elt F)),
    nullary main_cst (constant S_ .f32 0x3F800000#32),
    unary main_cst main_v3 (broadcastInDim S512x512 ![] bcast_S_S512x512 : (⟨S_, .f32⟩ : BufTy).Contents (Elt F) → (⟨S512x512, .f32⟩ : BufTy).Contents (Elt F)),
    nullary main_call0_v0 (iotaInDim S512x512 32 0),
    nullary main_call0_c (constantI S_ 32 4294967295#32),
    unary main_call0_c main_call0_v1 (broadcastInDim S512x512 ![] bcast_S_S512x512 : (⟨S_, .i32⟩ : BufTy).Contents (Elt F) → (⟨S512x512, .i32⟩ : BufTy).Contents (Elt F)),
    binary main_call0_v0 main_call0_v1 main_call0_v2 (addi : (⟨S512x512, .i32⟩ : BufTy).Contents (Elt F) → (⟨S512x512, .i32⟩ : BufTy).Contents (Elt F) → (⟨S512x512, .i32⟩ : BufTy).Contents (Elt F)),
    nullary main_call0_v3 (iotaInDim S512x512 32 1),
    binary main_call0_v2 main_call0_v3 main_call0_v4 (cmpi .sge : (⟨S512x512, .i32⟩ : BufTy).Contents (Elt F) → (⟨S512x512, .i32⟩ : BufTy).Contents (Elt F) → (⟨S512x512, .i1⟩ : BufTy).Contents (Elt F)),
    nullary main_call0_cst (constant S_ .f32 0x00000000#32),
    unary main_call0_cst main_call0_v5 (broadcastInDim S512x512 ![] bcast_S_S512x512 : (⟨S_, .f32⟩ : BufTy).Contents (Elt F) → (⟨S512x512, .f32⟩ : BufTy).Contents (Elt F)),
    ternary main_call0_v4 main_v3 main_call0_v5 main_v4 (select : (⟨S512x512, .i1⟩ : BufTy).Contents (Elt F) → (⟨S512x512, .f32⟩ : BufTy).Contents (Elt F) → (⟨S512x512, .f32⟩ : BufTy).Contents (Elt F) → (⟨S512x512, .f32⟩ : BufTy).Contents (Elt F)),
    nullary main_v5 (iotaInDim S512x512 32 0),
    nullary main_v6 (iotaInDim S512x512 32 1),
    nullary main_c (constantI S_ 32 0#32),
    unary main_c main_v7 (broadcastInDim S512x512 ![] bcast_S_S512x512 : (⟨S_, .i32⟩ : BufTy).Contents (Elt F) → (⟨S512x512, .i32⟩ : BufTy).Contents (Elt F)),
    binary main_v5 main_v7 main_v8 (addi : (⟨S512x512, .i32⟩ : BufTy).Contents (Elt F) → (⟨S512x512, .i32⟩ : BufTy).Contents (Elt F) → (⟨S512x512, .i32⟩ : BufTy).Contents (Elt F)),
    binary main_v8 main_v6 main_v9 (cmpi .eq : (⟨S512x512, .i32⟩ : BufTy).Contents (Elt F) → (⟨S512x512, .i32⟩ : BufTy).Contents (Elt F) → (⟨S512x512, .i1⟩ : BufTy).Contents (Elt F)),
    unary main_v9 main_v10 (uitofp .f32 : (⟨S512x512, .i1⟩ : BufTy).Contents (Elt F) → (⟨S512x512, .f32⟩ : BufTy).Contents (Elt F)),
    nullary main_cst_0 (constant S_ .f32 0x3F000000#32),
    unary main_cst_0 main_v11 (broadcastInDim S512x512 ![] bcast_S_S512x512 : (⟨S_, .f32⟩ : BufTy).Contents (Elt F) → (⟨S512x512, .f32⟩ : BufTy).Contents (Elt F)),
    binary main_v11 main_v10 main_v12 (mulf : (⟨S512x512, .f32⟩ : BufTy).Contents (Elt F) → (⟨S512x512, .f32⟩ : BufTy).Contents (Elt F) → (⟨S512x512, .f32⟩ : BufTy).Contents (Elt F)),
    binary main_v4 main_v12 main_v13 (addf : (⟨S512x512, .f32⟩ : BufTy).Contents (Elt F) → (⟨S512x512, .f32⟩ : BufTy).Contents (Elt F) → (⟨S512x512, .f32⟩ : BufTy).Contents (Elt F)),
    unary main_v13 main_v14 (broadcastInDim S1x512x512 ![1, 2] bcast_S512x512_S1x512x512_1_2 : (⟨S512x512, .f32⟩ : BufTy).Contents (Elt F) → (⟨S1x512x512, .f32⟩ : BufTy).Contents (Elt F)),
    unary main_v14 main_v15 (broadcastInDim S128x512x512 ![0, 1, 2] bcast_S1x512x512_S128x512x512_0_1_2 : (⟨S1x512x512, .f32⟩ : BufTy).Contents (Elt F) → (⟨S128x512x512, .f32⟩ : BufTy).Contents (Elt F)),
    binary main_v2 main_v15 main_v16 (mulf : (⟨S128x512x512, .f32⟩ : BufTy).Contents (Elt F) → (⟨S128x512x512, .f32⟩ : BufTy).Contents (Elt F) → (⟨S128x512x512, .f32⟩ : BufTy).Contents (Elt F)),
    binary main_arg2 main_v16 main_v17 ((fun l r => Host.dotGeneral dot_S128x512x512_S128x512x512_S128x512x512_2_1_1_2_0_0 none l r) : (⟨S128x512x512, .f32⟩ : BufTy).Contents (Elt F) → (⟨S128x512x512, .f32⟩ : BufTy).Contents (Elt F) → (⟨S128x512x512, .f32⟩ : BufTy).Contents (Elt F)),
    unary main_v17 main_v18 (Host.negf : (⟨S128x512x512, .f32⟩ : BufTy).Contents (Elt F) → (⟨S128x512x512, .f32⟩ : BufTy).Contents (Elt F)) ]

/-- The program is that straight line: the called function's body unfolds at its call. -/
theorem main_is_steps (c : Dev nD) : main (F := F) c = seq steps := rfl

/-- No buffer of the signature is scoped. -/
theorem noScopedRefs : (Finset.univ.filter fun b : Ref sig .tc => b.isScoped) = ∅ := by decide
/-- No semaphore of the signature is scoped. -/
theorem noScopedSems : (Finset.univ.filter fun sm : SemLoc sig => sm.isScoped .tc) = ∅ := by decide

/-- Every operation touches TensorCore buffers only. -/
theorem steps_within : (steps : List (HloOp τ sig (Elt F))).Forall fun op => op.bufs ⊆ tcRefs τ sig :=
  ⟨unary_bufs_sub .., binary_bufs_sub .., binary_bufs_sub .., nullary_bufs_sub .., unary_bufs_sub .., nullary_bufs_sub .., nullary_bufs_sub .., unary_bufs_sub .., binary_bufs_sub .., nullary_bufs_sub .., binary_bufs_sub .., nullary_bufs_sub .., unary_bufs_sub .., ternary_bufs_sub .., nullary_bufs_sub .., nullary_bufs_sub .., nullary_bufs_sub .., unary_bufs_sub .., binary_bufs_sub .., binary_bufs_sub .., unary_bufs_sub .., nullary_bufs_sub .., unary_bufs_sub .., binary_bufs_sub .., binary_bufs_sub .., unary_bufs_sub .., unary_bufs_sub .., binary_bufs_sub .., binary_bufs_sub .., unary_bufs_sub ..⟩

end Steps

/-! ## The composed term and the run -/

/-- The array the thirty operations compose to at the result buffer, as a function of the contents `x1` (C) and
    `x2` (L) of the two matrix arguments:  -(L · ((Lᵀ · (C · L)) ∘ W))  with W broadcast over the batch. -/
def refTerm (x1 x2 : FVec Ideal S128x512x512 .f32) : FVec Ideal S128x512x512 .f32 :=
  Host.negf (Host.dotGeneral dot_S128x512x512_S128x512x512_S128x512x512_2_1_1_2_0_0 none x2
    (mulf
      (Host.dotGeneral dot_S128x512x512_S128x512x512_S128x512x512_2_1_1_2_0_0 none
        (transpose S128x512x512 [0, 2, 1] x2 transposes_S128x512x512_S128x512x512_0_2_1)
        (Host.dotGeneral dot_S128x512x512_S128x512x512_S128x512x512_2_1_1_2_0_0 none x1 x2))
      (broadcastInDim S128x512x512 ![0, 1, 2] bcast_S1x512x512_S128x512x512_0_1_2
        (broadcastInDim S1x512x512 ![1, 2] bcast_S512x512_S1x512x512_1_2
          (Cert.Mask.weight (F := Ideal) bcast_S_S512x512)))))

set_option maxRecDepth 65536 in
set_option maxHeartbeats 2000000 in
/-- On every device, from any memory with zero counters: every weakly fair execution of the reference
    terminates with the result buffer at the composed term of the two matrix arguments' launch contents and the
    three arguments unchanged. -/
theorem run_refTerm (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_v18) = refTerm (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_arg0).trans (by after_results_simp),
      (h c main_v18).trans (by after_results_simp; rfl),
      (h c main_arg0).trans (by after_results_simp),
      (h c main_arg1).trans (by after_results_simp),
      (h c main_arg2).trans (by after_results_simp)⟩)
    (run_seq noScopedRefs noScopedSems defs main (fun _ => steps) main_is_steps (fun _ => steps_within) m ρ)

/-! ## The composed term, entry by entry -/

section DotIdx

variable (y : S128x512x512.Idx) (q : dot_S128x512x512_S128x512x512_S128x512x512_2_1_1_2_0_0.contr.Idx)

/-- The left operand's index of a batched product: the batch coordinate is the result's … -/
theorem lhs_batch : (dot_S128x512x512_S128x512x512_S128x512x512_2_1_1_2_0_0.lhsIdx y q 0).val = (y 0).val := by
  unfold DotDims.lhsIdx
  rw [dif_pos (show (0 : Fin S128x512x512.rank) ∈ dot_S128x512x512_S128x512x512_S128x512x512_2_1_1_2_0_0.lhsBatch by decide)]
  rfl
/-- … the row is the result's row … -/
theorem lhs_row : (dot_S128x512x512_S128x512x512_S128x512x512_2_1_1_2_0_0.lhsIdx y q 1).val = (y 1).val := by
  unfold DotDims.lhsIdx
  rw [dif_neg (show ¬(1 : Fin S128x512x512.rank) ∈ dot_S128x512x512_S128x512x512_S128x512x512_2_1_1_2_0_0.lhsBatch by decide),
    dif_pos (show (1 : Fin S128x512x512.rank) ∈ dot_S128x512x512_S128x512x512_S128x512x512_2_1_1_2_0_0.lhsNonContracting by decide)]
  rfl
/-- … and the column is the contracted coordinate. -/
theorem lhs_contr : (dot_S128x512x512_S128x512x512_S128x512x512_2_1_1_2_0_0.lhsIdx y q 2).val = (q ⟨0, by decide⟩).val :=
  dot_S128x512x512_S128x512x512_S128x512x512_2_1_1_2_0_0.lhsIdx_val_of_single rfl y q
/-- The right operand's index: the batch coordinate is the result's … -/
theorem rhs_batch : (dot_S128x512x512_S128x512x512_S128x512x512_2_1_1_2_0_0.rhsIdx y q 0).val = (y 0).val := by
  unfold DotDims.rhsIdx
  rw [dif_pos (show (0 : Fin S128x512x512.rank) ∈ dot_S128x512x512_S128x512x512_S128x512x512_2_1_1_2_0_0.rhsBatch by decide)]
  rfl
/-- … the row is the contracted coordinate … -/
theorem rhs_contr : (dot_S128x512x512_S128x512x512_S128x512x512_2_1_1_2_0_0.rhsIdx y q 1).val = (q ⟨0, by decide⟩).val :=
  dot_S128x512x512_S128x512x512_S128x512x512_2_1_1_2_0_0.rhsIdx_val_of_single rfl y q
/-- … and the column is the result's column. -/
theorem rhs_col : (dot_S128x512x512_S128x512x512_S128x512x512_2_1_1_2_0_0.rhsIdx y q 2).val = (y 2).val := by
  unfold DotDims.rhsIdx
  rw [dif_neg (show ¬(2 : Fin S128x512x512.rank) ∈ dot_S128x512x512_S128x512x512_S128x512x512_2_1_1_2_0_0.rhsBatch by decide),
    dif_pos (show (2 : Fin S128x512x512.rank) ∈ dot_S128x512x512_S128x512x512_S128x512x512_2_1_1_2_0_0.rhsNonContracting by decide)]
  rfl

end DotIdx

/-- A batched matrix product at an entry: batch row `b`, row `i`, column `k` of `l · r` is the sum over the
    contracted coordinate `q` of `l[b,i,q] · r[b,q,k]`. -/
theorem dot_apply (l r : FVec Ideal S128x512x512 .f32) (b : Fin 128) (i k : Fin 512) :
    Host.dotGeneral dot_S128x512x512_S128x512x512_S128x512x512_2_1_1_2_0_0 none l r (ix3 b i k) = ∑ q : Fin 512, l (ix3 b i q) * r (ix3 b q k) := by
  simp only [Host.dotGeneral]
  rw [Ideal.dotGeneral_apply, ← Equiv.sum_comp (ValueIdx.contrEquiv1 dot_S128x512x512_S128x512x512_S128x512x512_2_1_1_2_0_0 512 rfl rfl).symm]
  refine Finset.sum_congr rfl fun q _ => ?_
  have hq := ValueIdx.contrEquiv1_symm_val dot_S128x512x512_S128x512x512_S128x512x512_2_1_1_2_0_0 512 rfl rfl q
  have el : dot_S128x512x512_S128x512x512_S128x512x512_2_1_1_2_0_0.lhsIdx (ix3 b i k) ((ValueIdx.contrEquiv1 dot_S128x512x512_S128x512x512_S128x512x512_2_1_1_2_0_0 512 rfl rfl).symm q) = ix3 b i q :=
    funext fun a => Fin.ext (by
      match a with
      | ⟨0, _⟩ => exact lhs_batch _ _
      | ⟨1, _⟩ => exact lhs_row _ _
      | ⟨2, _⟩ => exact (lhs_contr _ _).trans hq)
  have er : dot_S128x512x512_S128x512x512_S128x512x512_2_1_1_2_0_0.rhsIdx (ix3 b i k) ((ValueIdx.contrEquiv1 dot_S128x512x512_S128x512x512_S128x512x512_2_1_1_2_0_0 512 rfl rfl).symm q) = ix3 b q k :=
    funext fun a => Fin.ext (by
      match a with
      | ⟨0, _⟩ => exact rhs_batch _ _
      | ⟨1, _⟩ => exact (rhs_contr _ _).trans hq
      | ⟨2, _⟩ => exact rhs_col _ _)
  rw [el, er]

/-- The transposed factor at an entry: row and column exchanged within the batch row. -/
theorem transpose_at (x : FVec Ideal S128x512x512 .f32) (b : Fin 128) (i k : Fin 512) :
    transpose S128x512x512 [0, 2, 1] x transposes_S128x512x512_S128x512x512_0_2_1 (ix3 b i k) = x (ix3 b k i) :=
  transpose_apply [0, 2, 1] x transposes_S128x512x512_S128x512x512_0_2_1 (ix3 b i k) (ix3 b k i) (fun a =>
    match a with
    | ⟨0, _⟩ => rfl
    | ⟨1, _⟩ => rfl
    | ⟨2, _⟩ => rfl)

/-- The weight matrix broadcast over the batch reads, in every batch row, the matrix's own entry. -/
theorem weight_bcast_at (W : FVec Ideal S512x512 .f32) (b : Fin 128) (j c : Fin 512) :
    broadcastInDim S128x512x512 ![0, 1, 2] bcast_S1x512x512_S128x512x512_0_1_2
      (broadcastInDim S1x512x512 ![1, 2] bcast_S512x512_S1x512x512_1_2 W) (ix3 b j c) = W (ix2 j c) := by
  rw [broadcastInDim_apply ![0, 1, 2] bcast_S1x512x512_S128x512x512_0_1_2 _ (ix3 b j c) (ix3 (0 : Fin 1) j c) (fun a =>
    match a with
    | ⟨0, _⟩ => rfl
    | ⟨1, _⟩ => rfl
    | ⟨2, _⟩ => rfl)]
  exact broadcastInDim_apply ![1, 2] bcast_S512x512_S1x512x512_1_2 W (ix3 (0 : Fin 1) j c) (ix2 j c) (fun a =>
    match a with
    | ⟨0, _⟩ => rfl
    | ⟨1, _⟩ => rfl)

/-- The composed term is the specification's result, entry by entry. -/
theorem refTerm_eq (x1 x2 : FVec Ideal S128x512x512 .f32) :
    refTerm x1 x2 = Cert.Congruence.result x1 x2 (Cert.Mask.weight (F := Ideal) bcast_S_S512x512) := by
  funext y
  obtain ⟨b, r, c, rfl⟩ : ∃ b r c, y = ix3 b r c := ⟨y 0, y 1, y 2, eq_ix3 y⟩
  rw [Cert.Congruence.result_apply]
  unfold refTerm
  show -(Host.dotGeneral dot_S128x512x512_S128x512x512_S128x512x512_2_1_1_2_0_0 none x2 _ (ix3 b r c)) = _
  rw [dot_apply]
  refine congrArg Neg.neg (Finset.sum_congr rfl fun j _ => ?_)
  rw [mulf_apply, dot_apply, weight_bcast_at]
  refine congrArg (fun t => x2 (ix3 b r j) * (t * _)) (Finset.sum_congr rfl fun q _ => ?_)
  rw [transpose_at, dot_apply]
  rfl

/-! ## The run, ending at the specification -/

/-- On every device, from any memory with zero counters: every weakly fair execution of the reference
    terminates with the result buffer at the specification's result of the two matrix arguments' launch
    contents and the weight matrix, and the three arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_v18) = Cert.Congruence.result (m ((c.tc : Thread nD τ).loc main_arg1)) (m ((c.tc : Thread nD τ).loc main_arg2)) (Cert.Mask.weight (F := Ideal) bcast_S_S512x512)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨(h c).1, (h c).2.1.trans (refTerm_eq _ _), (h c).2.2.1, (h c).2.2.2.1, (h c).2.2.2.2⟩)
    (run_refTerm m ρ)

end Cert.RefRun

end
-- ==== Proof.lean ====
/-
  Kernel against reference for the Gaussian-layer parameter conversion, over the extended reals.

  For batches C (a covariance) and L (a factor) of 128 matrices 512 × 512, both programs return the first argument
  untouched and the batch

      R = -(L · ((Lᵀ · (C · L)) ∘ W)),      W = tril(ones, -1) + 0.5 · eye,

  ∘ the entrywise product. The reference computes it as written, with three whole matrix products. The kernel works on 4
  batch rows per grid point and cuts the 512 columns into four blocks of 128: for column block K it forms only the
  blocks (Lᵀ · (C · L))[I, K] with I ≥ K, weights the diagonal one by the diagonal block of W, multiplies each by
  L[:, I], adds them up from zero and stores 0 minus the sum. Because W is 0 above the diagonal and 1 below it, the
  skipped blocks contribute 0 and the unweighted ones are weighted by 1, so the two arrangements agree on every
  extended real (x · 0 = 0, x · 1 = x, 0 + x = x and regrouping a finite sum): the finiteness precondition is never used.

  Spec           the function R and the split of a 512-sum into four blocks
  Mask           the weight matrix the host lines build, read at an entry: 0 above, 1 below the diagonal
  BlockLaw       the block-triangular arrangement equals R, column block by column block
  BlockOps       the body's batched matrix products, column slabs and weight blocks read at an entry
  Payloads       each stored column block at an entry
  Tiles          the four stored tiles are R of the block's inputs
  HostWeight     the weight matrix as the region finds it
  KernelValue    the 32 blocks tile the output array: the kernel's run ends at R
  RefRun         the reference's run ends at R
-/
import proofs.«181169_j25237227831465_2_alg».proof.Defs
import proofs.«181169_j25237227831465_2_alg».proof.Proof.Gen.Kernel
import proofs.«181169_j25237227831465_2_alg».proof.Proof.Gen.Kernel.Skeleton
import proofs.«181169_j25237227831465_2_alg».proof.Proof.Gen.Kernel.Launch
import proofs.«181169_j25237227831465_2_alg».proof.Proof.Gen.Kernel.Points
import proofs.«181169_j25237227831465_2_alg».proof.Proof.Gen.Kernel.Frame
import proofs.«181169_j25237227831465_2_alg».proof.Proof.Gen.KernelIdeal
import proofs.«181169_j25237227831465_2_alg».proof.Proof.Gen.KernelIdeal.Skeleton
import proofs.«181169_j25237227831465_2_alg».proof.Proof.Gen.KernelIdeal.Launch
import proofs.«181169_j25237227831465_2_alg».proof.Proof.Gen.KernelIdeal.Points
import proofs.«181169_j25237227831465_2_alg».proof.Proof.Gen.KernelIdeal.Frame
import proofs.«181169_j25237227831465_2_alg».proof.Proof.Gen.ReferenceIdeal
import proofs.«181169_j25237227831465_2_alg».proof.Proof.Gen.Pre_finite_inputs
import proofs.«181169_j25237227831465_2_alg».proof.Proof.Gen.KernelIdeal.Value
import proofs.«181169_j25237227831465_2_alg».proof.Proof.KernelValue
import proofs.«181169_j25237227831465_2_alg».proof.Proof.RefRun
import Idealize.ShloMosaic.Adequacy
import Idealize.ShloMosaic.Init

noncomputable section

namespace Cert.Proof

open Idealize.ShloMosaic Idealize.SL.Sem

/-- The kernel as printed runs and leaves its arguments alone. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference runs and leaves its arguments alone: its run, the result forgotten. -/
theorem frame_reference : Cert.frame_ReferenceIdeal := fun m ρ _ =>
  (θ_run Cert.ReferenceIdeal.defs _ _).mono (fun _ h c => (h c).2.2) (Cert.RefRun.run m ρ)

/-- The ideal pass rewrote nothing. -/
theorem preserves : Cert.preserves_Kernel_KernelIdeal := trivial

/-- From memories agreeing on the arguments both programs end with the first argument and with R of the other two. -/
theorem algebraic : Cert.algebraic_KernelIdeal_ReferenceIdeal := by
  intro m ρ m' ρ' _ hagree
  refine ⟨fun c => m ((c.tc : Thread Cert.KernelIdeal.nD Cert.KernelIdeal.τ).loc Cert.KernelIdeal.main_arg0),
    fun c => Cert.KernelValue.whole m c, ?_, ?_⟩
  · exact (θ_run Cert.KernelIdeal.defs _ _).mono (fun _ h c => ⟨(h c).2.1, (h c).1, (h c).2⟩) (Cert.KernelValue.run m ρ)
  · refine (θ_run Cert.ReferenceIdeal.defs _ _).mono (fun _ h c => ⟨(h c).1.trans (hagree c).1, (h c).2.1.trans ?_, (h c).2.2⟩)
      (Cert.RefRun.run m' ρ')
    rw [(hagree c).2.1, (hagree c).2.2]
    rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
